-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4096x8192 : Shape := ⟨2, ![4096, 8192]⟩
abbrev S8192x2 : Shape := ⟨2, ![8192, 2]⟩
abbrev S2 : Shape := ⟨1, ![2]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : IVec S2048x1024 32) (main_arg1 : FVec F S4096x8192 .f32) (main_arg2 : IVec S8192x2 32) (main_arg3 : IVec S2 32) : IVec S_ 1 :=
  let main_v0 : FVec F S4096x8192 .f32 := Host.absf main_arg1
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S2048x1024 : Shape := ⟨2, ![2048, 1024]⟩
abbrev S4096x8192 : Shape := ⟨2, ![4096, 8192]⟩
abbrev S8192x2 : Shape := ⟨2, ![8192, 2]⟩
abbrev S2 : Shape := ⟨1, ![2]⟩
abbrev S4 : Shape := ⟨1, ![4]⟩
abbrev S8192x1 : Shape := ⟨2, ![8192, 1]⟩
abbrev S8192 : Shape := ⟨1, ![8192]⟩
abbrev S_ : Shape := ⟨0, ![]⟩
abbrev S2048x8192 : Shape := ⟨2, ![2048, 8192]⟩
abbrev S2048x8192x1 : Shape := ⟨3, ![2048, 8192, 1]⟩
abbrev S1x1x2 : Shape := ⟨3, ![1, 1, 2]⟩
abbrev S2048x8192x2 : Shape := ⟨3, ![2048, 8192, 2]⟩
abbrev S4096 : Shape := ⟨1, ![4096]⟩
abbrev S2048x4096 : Shape := ⟨2, ![2048, 4096]⟩
abbrev S512x2048 : Shape := ⟨2, ![512, 2048]⟩
abbrev S512x512 : Shape := ⟨2, ![512, 512]⟩
abbrev S1x4096 : Shape := ⟨2, ![1, 4096]⟩

abbrev nBuf : Space → Nat
  | .hbm => 66
  | .vmem => 7
  | .smem => 0
  | _ => 0

abbrev bufTy : (tb : Table) → Fin (tcTables nBuf tb) → BufTy
  | .hbm, ⟨0, _⟩ => ⟨S2048x1024, .i32⟩
  | .hbm, ⟨1, _⟩ => ⟨S4096x8192, .f32⟩
  | .hbm, ⟨2, _⟩ => ⟨S8192x2, .i32⟩
  | .hbm, ⟨3, _⟩ => ⟨S2, .i32⟩
  | .hbm, ⟨4, _⟩ => ⟨S4, .i32⟩
  | .hbm, ⟨5, _⟩ => ⟨S8192x1, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S2048x8192, .i32⟩
  | .hbm, ⟨16, _⟩ => ⟨S_, .i32⟩
  | .hbm, ⟨17, _⟩ => ⟨S2048x8192, .i32⟩
  | .hbm, ⟨18, _⟩ => ⟨S2048x8192, .i32⟩
  | .hbm, ⟨19, _⟩ => ⟨S8192x1, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S2048x8192, .i32⟩
  | .hbm, ⟨30, _⟩ => ⟨S2048x8192, .i32⟩
  | .hbm, ⟨31, _⟩ => ⟨S_, .i32⟩
  | .hbm, ⟨32, _⟩ => ⟨S2048x8192, .i32⟩
  | .hbm, ⟨33, _⟩ => ⟨S2048x8192, .i1⟩
  | .hbm, ⟨34, _⟩ => ⟨S_, .i32⟩
  | .hbm, ⟨35, _⟩ => ⟨S2048x8192, .i32⟩
  | .hbm, ⟨36, _⟩ => ⟨S2048x8192, .i32⟩
  | .hbm, ⟨37, _⟩ => ⟨S2048x8192, .i32⟩
  | .hbm, ⟨38, _⟩ => ⟨S2048x8192x1, .i32⟩
  | .hbm, ⟨39, _⟩ => ⟨S2048x8192, .i32⟩
  | .hbm, ⟨40, _⟩ => ⟨S2048x8192x1, .i32⟩
  | .hbm, ⟨41, _⟩ => ⟨S1x1x2, .i32⟩
  | .hbm, ⟨42, _⟩ => ⟨S2048x8192x2, .i32⟩
  | .hbm, ⟨43, _⟩ => ⟨S2048x8192x2, .i32⟩
  | .hbm, ⟨44, _⟩ => ⟨S2048x8192x2, .i1⟩
  | .hbm, ⟨45, _⟩ => ⟨S_, .i1⟩
  | .hbm, ⟨46, _⟩ => ⟨S2048x8192, .i1⟩
  | .hbm, ⟨47, _⟩ => ⟨S_, .i32⟩
  | .hbm, ⟨48, _⟩ => ⟨S_, .i32⟩
  | .hbm, ⟨49, _⟩ => ⟨S2048x8192, .i32⟩
  | .hbm, ⟨50, _⟩ => ⟨S2048x8192, .i32⟩
  | .hbm, ⟨51, _⟩ => ⟨S_, .f32⟩
  | .hbm, ⟨52, _⟩ => ⟨S4096x8192, .f32⟩
  | .hbm, ⟨53, _⟩ => ⟨S4096x8192, .i1⟩
  | .hbm, ⟨54, _⟩ => ⟨S4096x8192, .i32⟩
  | .hbm, ⟨55, _⟩ => ⟨S_, .i32⟩
  | .hbm, ⟨56, _⟩ => ⟨S4096, .i32⟩
  | .hbm, ⟨57, _⟩ => ⟨S4096, .f32⟩
  | .hbm, ⟨58, _⟩ => ⟨S2048x4096, .f32⟩
  | .hbm, ⟨59, _⟩ => ⟨S1x4096, .f32⟩
  | .hbm, ⟨60, _⟩ => ⟨S2048x4096, .f32⟩
  | .hbm, ⟨61, _⟩ => ⟨S2048x4096, .f32⟩
  | .hbm, ⟨62, _⟩ => ⟨S_, .f32⟩
  | .hbm, ⟨63, _⟩ => ⟨S_, .f32⟩
  | .hbm, ⟨64, _⟩ => ⟨S2048x4096, .f32⟩
  | .hbm, ⟨65, _⟩ => ⟨S2048x4096, .f32⟩
  | .local _ .vmem, ⟨0, _⟩ => ⟨S512x2048, .i32⟩
  | .local _ .vmem, ⟨1, _⟩ => ⟨S512x2048, .i32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_c_8 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32_15 : BitVec 32 := 3#32
  let v58 : BitVec 1 := Scalar.cmpi .eq arg2 c3_i32_15
  let v59 : BitVec 32 := Scalar.extui v58
  let c0_i32_16 : BitVec 32 := 0#32
  let v60 : BitVec 1 := Scalar.cmpi .ne v59 c0_i32_16
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S2048x8192 : S_.BroadcastsInDim S2048x8192 (![] : Fin 0 → Fin S2048x8192.rank)
  slices_S8192x2_S8192x1_0_1 : S8192x2.Slices ![0, 1] S8192x1
  bcast_S2048x8192_S2048x8192x1_0_1 : S2048x8192.BroadcastsInDim S2048x8192x1 (![0, 1] : Fin 2 → Fin S2048x8192x1.rank)
  bcast_S2_S1x1x2_2 : S2.BroadcastsInDim S1x1x2 (![2] : Fin 1 → Fin S1x1x2.rank)
  bcast_S2048x8192x1_S2048x8192x2_0_1_2 : S2048x8192x1.BroadcastsInDim S2048x8192x2 (![0, 1, 2] : Fin 3 → Fin S2048x8192x2.rank)
  bcast_S1x1x2_S2048x8192x2_0_1_2 : S1x1x2.BroadcastsInDim S2048x8192x2 (![0, 1, 2] : Fin 3 → Fin S2048x8192x2.rank)
  reducesTo_S2048x8192x2_S2048x8192_d2 : S2048x8192x2.ReducesTo [2] S2048x8192
  h_S_ : 0 < S_.numel
  bcast_S_S4096x8192 : S_.BroadcastsInDim S4096x8192 (![] : Fin 0 → Fin S4096x8192.rank)
  natLt_1_32 : 1 < 32
  reducesTo_S4096x8192_S4096_d1 : S4096x8192.ReducesTo [1] S4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  reducesTo_S2048x4096_S_d0_1 : S2048x4096.ReducesTo [0, 1] S_
  bcast_S_S2048x4096 : S_.BroadcastsInDim S2048x4096 (![] : Fin 0 → Fin S2048x4096.rank)
  gather_S2048x1024_S8192x1_S2048x8192_0_1_n_n_1_1_20481_wf : GatherDims.WF S2048x1024 S8192x1 S2048x8192 [0] [1] [] [1] [] 1 ![2048, 1]
  gather_S4_S2048x8192x1_S2048x8192_n_0_n_n_0_2_1_wf : GatherDims.WF S4 S2048x8192x1 S2048x8192 [] [0] [] [0] [] 2 ![1]
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x8192.size a
  hwx0_0 : ∀ i : grid0.Coords, EltTy.bits .i32 = 32 ∨ (Rect.block (s := S2048x8192) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x8192.size a
  hwx0_1 : ∀ i : grid0.Coords, EltTy.bits .f32 = 32 ∨ (Rect.block (s := S4096x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x4096.size a
  hwx0_2 : ∀ i : grid0.Coords, EltTy.bits .f32 = 32 ∨ (Rect.block (s := S2048x4096) S512x512.size (cc0_transform_2 i) (hinb0_2 i)).WholeWords (EltTy.packing .f32)

variable [Facts₀]

def gather_S2048x1024_S8192x1_S2048x8192_0_1_n_n_1_1_20481 : GatherDims S2048x1024 S8192x1 S2048x8192 where
  offsetDims := [0]
  collapsedSliceDims := [1]
  operandBatchingDims := []
  startIndicesBatchingDims := []
  startIndexMap := [1]
  indexVectorDim := 1
  sliceSizes := ![2048, 1]
  wf := gather_S2048x1024_S8192x1_S2048x8192_0_1_n_n_1_1_20481_wf
def gather_S4_S2048x8192x1_S2048x8192_n_0_n_n_0_2_1 : GatherDims S4 S2048x8192x1 S2048x8192 where
  offsetDims := []
  collapsedSliceDims := [0]
  operandBatchingDims := []
  startIndicesBatchingDims := []
  startIndexMap := [0]
  indexVectorDim := 2
  sliceSizes := ![1]
  wf := gather_S4_S2048x8192x1_S2048x8192_n_0_n_n_0_2_1_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v34) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x1024 : Shape := ⟨2, ![2048, 1024]⟩
abbrev S4096x8192 : Shape := ⟨2, ![4096, 8192]⟩
abbrev S8192x2 : Shape := ⟨2, ![8192, 2]⟩
abbrev S2 : Shape := ⟨1, ![2]⟩
abbrev S4 : Shape := ⟨1, ![4]⟩
abbrev S8192x1 : Shape := ⟨2, ![8192, 1]⟩
abbrev S8192 : Shape := ⟨1, ![8192]⟩
abbrev S_ : Shape := ⟨0, ![]⟩
abbrev S2048x8192 : Shape := ⟨2, ![2048, 8192]⟩
abbrev S2048x8192x1 : Shape := ⟨3, ![2048, 8192, 1]⟩
abbrev S1x1x2 : Shape := ⟨3, ![1, 1, 2]⟩
abbrev S2048x8192x2 : Shape := ⟨3, ![2048, 8192, 2]⟩
abbrev S4096 : Shape := ⟨1, ![4096]⟩
abbrev S1x4096 : Shape := ⟨2, ![1, 4096]⟩
abbrev S2048x4096 : Shape := ⟨2, ![2048, 4096]⟩
abbrev S8192x4096 : Shape := ⟨2, ![8192, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .i32⟩
  | .hbm, ⟨1, _⟩ => ⟨S4096x8192, .f32⟩
  | .hbm, ⟨2, _⟩ => ⟨S8192x2, .i32⟩
  | .hbm, ⟨3, _⟩ => ⟨S2, .i32⟩
  | .hbm, ⟨4, _⟩ => ⟨S4, .i32⟩
  | .hbm, ⟨5, _⟩ => ⟨S8192x1, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S2048x8192, .i32⟩
  | .hbm, ⟨16, _⟩ => ⟨S_, .i32⟩
  | .hbm, ⟨17, _⟩ => ⟨S2048x8192, .i32⟩
  | .hbm, ⟨18, _⟩ => ⟨S2048x8192, .i32⟩
  | .hbm, ⟨19, _⟩ => ⟨S8192x1, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S2048x8192, .i32⟩
  | .hbm, ⟨30, _⟩ => ⟨S2048x8192, .i32⟩
  | .hbm, ⟨31, _⟩ => ⟨S_, .i32⟩
  | .hbm, ⟨32, _⟩ => ⟨S2048x8192, .i32⟩
  | .hbm, ⟨33, _⟩ => ⟨S2048x8192, .i1⟩
  | .hbm, ⟨34, _⟩ => ⟨S_, .i32⟩
  | .hbm, ⟨35, _⟩ => ⟨S2048x8192, .i32⟩
  | .hbm, ⟨36, _⟩ => ⟨S2048x8192, .i32⟩
  | .hbm, ⟨37, _⟩ => ⟨S2048x8192, .i32⟩
  | .hbm, ⟨38, _⟩ => ⟨S2048x8192x1, .i32⟩
  | .hbm, ⟨39, _⟩ => ⟨S2048x8192, .i32⟩
  | .hbm, ⟨40, _⟩ => ⟨S2048x8192x1, .i32⟩
  | .hbm, ⟨41, _⟩ => ⟨S1x1x2, .i32⟩
  | .hbm, ⟨42, _⟩ => ⟨S2048x8192x2, .i32⟩
  | .hbm, ⟨43, _⟩ => ⟨S2048x8192x2, .i32⟩
  | .hbm, ⟨44, _⟩ => ⟨S2048x8192x2, .i1⟩
  | .hbm, ⟨45, _⟩ => ⟨S_, .i1⟩
  | .hbm, ⟨46, _⟩ => ⟨S2048x8192, .i1⟩
  | .hbm, ⟨47, _⟩ => ⟨S_, .i32⟩
  | .hbm, ⟨48, _⟩ => ⟨S_, .i32⟩
  | .hbm, ⟨49, _⟩ => ⟨S2048x8192, .i32⟩
  | .hbm, ⟨50, _⟩ => ⟨S2048x8192, .i32⟩
  | .hbm, ⟨51, _⟩ => ⟨S_, .f32⟩
  | .hbm, ⟨52, _⟩ => ⟨S4096x8192, .f32⟩
  | .hbm, ⟨53, _⟩ => ⟨S4096x8192, .i1⟩
  | .hbm, ⟨54, _⟩ => ⟨S4096x8192, .i32⟩
  | .hbm, ⟨55, _⟩ => ⟨S_, .i32⟩
  | .hbm, ⟨56, _⟩ => ⟨S4096, .i32⟩
  | .hbm, ⟨57, _⟩ => ⟨S4096, .f32⟩
  | .hbm, ⟨58, _⟩ => ⟨S1x4096, .f32⟩
  | .hbm, ⟨59, _⟩ => ⟨S2048x4096, .f32⟩
  | .hbm, ⟨60, _⟩ => ⟨S_, .i32⟩
  | .hbm, ⟨61, _⟩ => ⟨S2048x8192, .i32⟩
  | .hbm, ⟨62, _⟩ => ⟨S2048x8192, .i1⟩
  | .hbm, ⟨63, _⟩ => ⟨S2048x8192, .f32⟩
  | .hbm, ⟨64, _⟩ => ⟨S_, .f32⟩
  | .hbm, ⟨65, _⟩ => ⟨S4096x8192, .f32⟩
  | .hbm, ⟨66, _⟩ => ⟨S4096x8192, .i1⟩
  | .hbm, ⟨67, _⟩ => ⟨S4096x8192, .f32⟩
  | .hbm, ⟨68, _⟩ => ⟨S8192x4096, .f32⟩
  | .hbm, ⟨69, _⟩ => ⟨S2048x4096, .f32⟩
  | .hbm, ⟨70, _⟩ => ⟨S2048x4096, .f32⟩
  | .hbm, ⟨71, _⟩ => ⟨S_, .i32⟩
  | .hbm, ⟨72, _⟩ => ⟨S2048x8192, .i32⟩
  | .hbm, ⟨73, _⟩ => ⟨S2048x8192, .i1⟩
  | .hbm, ⟨74, _⟩ => ⟨S2048x8192, .f32⟩
  | .hbm, ⟨75, _⟩ => ⟨S_, .f32⟩
  | .hbm, ⟨76, _⟩ => ⟨S4096x8192, .f32⟩
  | .hbm, ⟨77, _⟩ => ⟨S4096x8192, .i1⟩
  | .hbm, ⟨78, _⟩ => ⟨S4096x8192, .f32⟩
  | .hbm, ⟨79, _⟩ => ⟨S8192x4096, .f32⟩
  | .hbm, ⟨80, _⟩ => ⟨S2048x4096, .f32⟩
  | .hbm, ⟨81, _⟩ => ⟨S2048x4096, .f32⟩
  | .hbm, ⟨82, _⟩ => ⟨S_, .i32⟩
  | .hbm, ⟨83, _⟩ => ⟨S2048x8192, .i32⟩
  | .hbm, ⟨84, _⟩ => ⟨S2048x8192, .i1⟩
  | .hbm, ⟨85, _⟩ => ⟨S2048x8192, .f32⟩
  | .hbm, ⟨86, _⟩ => ⟨S_, .f32⟩
  | .hbm, ⟨87, _⟩ => ⟨S4096x8192, .f32⟩
  | .hbm, ⟨88, _⟩ => ⟨S4096x8192, .i1⟩
  | .hbm, ⟨89, _⟩ => ⟨S4096x8192, .f32⟩
  | .hbm, ⟨90, _⟩ => ⟨S8192x4096, .f32⟩
  | .hbm, ⟨91, _⟩ => ⟨S2048x4096, .f32⟩
  | .hbm, ⟨92, _⟩ => ⟨S2048x4096, .f32⟩
  | .hbm, ⟨93, _⟩ => ⟨S_, .i32⟩
  | .hbm, ⟨94, _⟩ => ⟨S2048x8192, .i32⟩
  | .hbm, ⟨95, _⟩ => ⟨S2048x8192, .i1⟩
  | .hbm, ⟨96, _⟩ => ⟨S2048x8192, .f32⟩
  | .hbm, ⟨97, _⟩ => ⟨S_, .f32⟩
  | .hbm, ⟨98, _⟩ => ⟨S4096x8192, .f32⟩
  | .hbm, ⟨99, _⟩ => ⟨S4096x8192, .i1⟩
  | .hbm, ⟨100, _⟩ => ⟨S4096x8192, .f32⟩
  | .hbm, ⟨101, _⟩ => ⟨S8192x4096, .f32⟩
  | .hbm, ⟨102, _⟩ => ⟨S2048x4096, .f32⟩
  | .hbm, ⟨103, _⟩ => ⟨S2048x4096, .f32⟩
  | .hbm, ⟨104, _⟩ => ⟨S_, .f32⟩
  | .hbm, ⟨105, _⟩ => ⟨S_, .f32⟩
  | .hbm, ⟨106, _⟩ => ⟨S2048x4096, .f32⟩
  | .hbm, ⟨107, _⟩ => ⟨S2048x4096, .f32⟩
  | _, _ => ⟨S2048x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_c_8 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S2048x8192 : S_.BroadcastsInDim S2048x8192 (![] : Fin 0 → Fin S2048x8192.rank)
  slices_S8192x2_S8192x1_0_1 : S8192x2.Slices ![0, 1] S8192x1
  bcast_S2048x8192_S2048x8192x1_0_1 : S2048x8192.BroadcastsInDim S2048x8192x1 (![0, 1] : Fin 2 → Fin S2048x8192x1.rank)
  bcast_S2_S1x1x2_2 : S2.BroadcastsInDim S1x1x2 (![2] : Fin 1 → Fin S1x1x2.rank)
  bcast_S2048x8192x1_S2048x8192x2_0_1_2 : S2048x8192x1.BroadcastsInDim S2048x8192x2 (![0, 1, 2] : Fin 3 → Fin S2048x8192x2.rank)
  bcast_S1x1x2_S2048x8192x2_0_1_2 : S1x1x2.BroadcastsInDim S2048x8192x2 (![0, 1, 2] : Fin 3 → Fin S2048x8192x2.rank)
  reducesTo_S2048x8192x2_S2048x8192_d2 : S2048x8192x2.ReducesTo [2] S2048x8192
  h_S_ : 0 < S_.numel
  bcast_S_S4096x8192 : S_.BroadcastsInDim S4096x8192 (![] : Fin 0 → Fin S4096x8192.rank)
  natLt_1_32 : 1 < 32
  reducesTo_S4096x8192_S4096_d1 : S4096x8192.ReducesTo [1] S4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S4096x8192_S8192x4096_1_0 : S4096x8192.Transposes [1, 0] S8192x4096
  reducesTo_S2048x4096_S_d0_1 : S2048x4096.ReducesTo [0, 1] S_
  bcast_S_S2048x4096 : S_.BroadcastsInDim S2048x4096 (![] : Fin 0 → Fin S2048x4096.rank)
  gather_S2048x1024_S8192x1_S2048x8192_0_1_n_n_1_1_20481_wf : GatherDims.WF S2048x1024 S8192x1 S2048x8192 [0] [1] [] [1] [] 1 ![2048, 1]
  gather_S4_S2048x8192x1_S2048x8192_n_0_n_n_0_2_1_wf : GatherDims.WF S4 S2048x8192x1 S2048x8192 [] [0] [] [0] [] 2 ![1]
  dot_S2048x8192_S8192x4096_S2048x4096_1_0_0_1_n_n_wf : DotDims.WF S2048x8192 S8192x4096 S2048x4096 [1] [0] [0] [1] [] []

variable [Facts₀]

def gather_S2048x1024_S8192x1_S2048x8192_0_1_n_n_1_1_20481 : GatherDims S2048x1024 S8192x1 S2048x8192 where
  offsetDims := [0]
  collapsedSliceDims := [1]
  operandBatchingDims := []
  startIndicesBatchingDims := []
  startIndexMap := [1]
  indexVectorDim := 1
  sliceSizes := ![2048, 1]
  wf := gather_S2048x1024_S8192x1_S2048x8192_0_1_n_n_1_1_20481_wf
def gather_S4_S2048x8192x1_S2048x8192_n_0_n_n_0_2_1 : GatherDims S4 S2048x8192x1 S2048x8192 where
  offsetDims := []
  collapsedSliceDims := [0]
  operandBatchingDims := []
  startIndicesBatchingDims := []
  startIndexMap := [0]
  indexVectorDim := 2
  sliceSizes := ![1]
  wf := gather_S4_S2048x8192x1_S2048x8192_n_0_n_n_0_2_1_wf
def dot_S2048x8192_S8192x4096_S2048x4096_1_0_0_1_n_n : DotDims S2048x8192 S8192x4096 S2048x4096 where
  lhsContracting := [1]
  rhsContracting := [0]
  lhsNonContracting := [0]
  rhsNonContracting := [1]
  lhsBatch := []
  rhsBatch := []
  wf := dot_S2048x8192_S8192x4096_S2048x4096_1_0_0_1_n_n_wf

class Facts : Prop extends Facts₀ where

variable [Facts]
-- ==== Proof.KernelPieces.lean ====
/-
  What one grid point leaves behind.  The body of the kernel at a point reads an edge-state block x0 [512, 2048]
  and a learned-state block x1 [512, 2048], and replaces the accumulator acc [512, 512] it carries from point to
  point by  (((acc + M2) + M3) + M5) + M9,  where Mv is the matrix product of the indicators "x0 = v" and "x1 = v"
  over the block's 2048 edges.  At the first point of a run of four the accumulator is first reset to zero; at the
  last point of the run the output block receives the accumulator's new contents.
-/
import proofs.«145659_j42271068127504_1_alg».proof.Proof.Gen.KernelIdeal.Frame
import Idealize.ShloMosaic.Lib.Pipeline.Value
import Idealize.ShloMosaic.Lib.Tactic

set_option pp.maxSteps 5000
set_option pp.deepTerms false

noncomputable section
namespace Cert.KernelIdeal.Acc
open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- One point's update of the accumulator: the four codes' block products added to it in the order 2, 3, 5, 9. -/
def step (x0 : Vec F S512x2048 .i32) (x1 : Vec F S512x2048 .f32) (acc : Vec F S512x512 .f32) : Vec F S512x512 .f32 :=
  k0_pay1 (k0_pay3 x0) x1 (k0_pay4 x0 x1 acc) (k0_pay5 x0) (k0_pay6 x1)

/-- The accumulator after a point that does not reset it: one update of what the point before left. -/
theorem sout_B (c : Dev nD) (i : grid0.Coords) (arg3 : Memref sig .tc .vmem S512x2048 .i32) (harg3 : arg3.IsWhole) (arg4 : Memref sig .tc .vmem S512x2048 .f32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : ¬cond0_1 i)
    (x0 : Vec F S512x2048 .i32) (x1 : Vec F S512x2048 .f32) (xs0 : Vec F S512x512 .f32) :
    sout0_B_0 c i arg3 harg3 arg4 harg4 arg5 harg5 arg6 harg6 hc0 hc1 x0 x1 xs0 = step x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S512x2048) hz, View.ld_unit_zero (S := S512x512) hz]
  rfl

/-- The accumulator after the last point of a run of four: the same update. -/
theorem sout_C (c : Dev nD) (i : grid0.Coords) (arg3 : Memref sig .tc .vmem S512x2048 .i32) (harg3 : arg3.IsWhole) (arg4 : Memref sig .tc .vmem S512x2048 .f32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x2048 .i32) (x1 : Vec F S512x2048 .f32) (xs0 : Vec F S512x512 .f32) :
    sout0_C_0 c i arg3 harg3 arg4 harg4 arg5 harg5 arg6 harg6 hc0 hc1 x0 x1 xs0 = step x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x2048) hz, View.ld_unit_zero (S := S512x512) hz]
  rfl

/-- The output block after the last point of a run of four: the accumulator's new contents, read back. -/
theorem out_C (c : Dev nD) (i : grid0.Coords) (arg3 : Memref sig .tc .vmem S512x2048 .i32) (harg3 : arg3.IsWhole) (arg4 : Memref sig .tc .vmem S512x2048 .f32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x2048 .i32) (x1 : Vec F S512x2048 .f32) (xs0 : Vec F S512x512 .f32) :
    out0_C_2 c i arg3 harg3 arg4 harg4 arg5 harg5 arg6 harg6 hc0 hc1 x0 x1 xs0 = step x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x2048) hz, View.ld_unit_zero (S := S512x512) hz]
  exact View.readCov_unit_zero (S := S512x512) _ hz _ _

/-- The accumulator after the first point of a run of four: one update of the zero block. -/
theorem sout_A (c : Dev nD) (i : grid0.Coords) (arg3 : Memref sig .tc .vmem S512x2048 .i32) (harg3 : arg3.IsWhole) (arg4 : Memref sig .tc .vmem S512x2048 .f32) (harg4 : arg4.IsWhole) (arg5 : Memref sig .tc .vmem S512x512 .f32) (harg5 : arg5.IsWhole) (arg6 : Memref sig .tc .vmem S512x512 .f32) (harg6 : arg6.IsWhole) (hc0 : cond0_0 i) (hc1 : ¬cond0_1 i)
    (x0 : Vec F S512x2048 .i32) (x1 : Vec F S512x2048 .f32) :
    sout0_A_0 c i arg3 harg3 arg4 harg4 arg5 harg5 arg6 harg6 hc0 hc1 x0 x1 = step x0 x1 k0_pay2 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x512) hz]
  simp only [View.readAt_eq_ld, harg3.read_unread, harg4.read_unread, harg6.read_unread, View.ld_unit_zero (S := S512x2048) hz, View.ld_unit_zero (S := S512x512) hz, View.readCov_unit_zero (S := S512x512) _ hz]
  rfl

end Cert.KernelIdeal.Acc
end
-- ==== Proof.KernelAcc.lean ====
/-
  The accumulator point by point.  The grid's 128 points are 32 runs of four consecutive points (the edge axis cut
  in four blocks of 2048); the accumulator is reset at the first point of each run, so after a point it holds the
  updates of the points of its own run up to that point, applied in order to the zero block.
-/
import proofs.«145659_j42271068127504_1_alg».proof.Proof.KernelPieces

set_option pp.maxSteps 5000
set_option pp.deepTerms false

noncomputable section
namespace Cert.KernelIdeal.Acc
open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The update of point n: its two input blocks applied to an accumulator. -/
def stepAt (c : Dev nD) (n : ℕ) (h : n < cfg0.N) (acc : Vec F S512x512 .f32) : Vec F S512x512 .f32 :=
  step (iblk m c 0 ⟨n, h⟩) (iblk m c 1 ⟨n, h⟩) acc

/-- The accumulator after point n: reset where a run of four starts, else one update of the point before's. -/
def accAt (c : Dev nD) : (n : ℕ) → n < cfg0.N → Vec F S512x512 .f32
  | 0, h => stepAt m c 0 h k0_pay2
  | n + 1, h => if (n + 1) % 4 = 0 then stepAt m c (n + 1) h k0_pay2
      else stepAt m c (n + 1) h (accAt c n (Nat.lt_of_succ_lt h))

theorem accAt_succ (c : Dev nD) (n : ℕ) (h : n + 1 < cfg0.N) :
    accAt m c (n + 1) h = if (n + 1) % 4 = 0 then stepAt m c (n + 1) h k0_pay2
      else stepAt m c (n + 1) h (accAt m c n (Nat.lt_of_succ_lt h)) := rfl

/-- At a point where a run starts the accumulator is one update of the zero block. -/
theorem accAt_start (c : Dev nD) (n : ℕ) (h : n < cfg0.N) (h0 : n % 4 = 0) :
    accAt m c n h = stepAt m c n h k0_pay2 := by
  cases n with
  | zero => rfl
  | succ n => rw [accAt_succ, if_pos h0]

/-- What the carried scratch holds after point n is the accumulator. -/
theorem outsAt_snd (c : Dev nD) : ∀ (n : ℕ) (h : n < cfg0.N), (outsAt0 m c n h).2 = accAt m c n h
  | 0, h => by
    rw [outsAt0_A m c ⟨0, h⟩ rfl (by show ¬0 % 4 = 3; decide)]
    dsimp only
    rw [sout_A]
    rfl
  | n + 1, h => by
    by_cases h0 : (n + 1) % 4 = 0
    · have h1 : ¬(n + 1) % 4 = 3 := by omega
      rw [outsAt0_A m c ⟨n + 1, h⟩ h0 h1, accAt_succ, if_pos h0]
      dsimp only
      rw [sout_A]
      rfl
    · by_cases h1 : (n + 1) % 4 = 3
      · rw [outsAt0_C m c ⟨n + 1, h⟩ h0 h1, accAt_succ, if_neg h0]
        dsimp only
        rw [sout_C]
        show step _ _ (outsAt0 m c n _).2 = step _ _ (accAt m c n _)
        rw [outsAt_snd c n]
      · rw [outsAt0_B m c ⟨n + 1, h⟩ h0 h1, accAt_succ, if_neg h0]
        dsimp only
        rw [sout_B]
        show step _ _ (outsAt0 m c n _).2 = step _ _ (accAt m c n _)
        rw [outsAt_snd c n]

/-- At the last point of a run the output's staging buffer holds the accumulator too. -/
theorem outsAt_fst (c : Dev nD) (n : ℕ) (h : n < cfg0.N) (h3 : n % 4 = 3) :
    (outsAt0 m c n h).1 = accAt m c n h := by
  cases n with
  | zero => exact absurd h3 (by decide)
  | succ n =>
    have h0 : ¬(n + 1) % 4 = 0 := by omega
    rw [outsAt0_C m c ⟨n + 1, h⟩ h0 h3, accAt_succ, if_neg h0]
    dsimp only
    rw [out_C]
    show step _ _ (outsAt0 m c n _).2 = step _ _ (accAt m c n _)
    rw [outsAt_snd m c n]

/-- The accumulator after the last point of the run that starts at point n: the four updates in order. -/
theorem accAt_run (c : Dev nD) (n : ℕ) (h0 : n % 4 = 0) (h : n + 3 < cfg0.N) :
    accAt m c (n + 3) h
      = stepAt m c (n + 3) h (stepAt m c (n + 2) (by omega) (stepAt m c (n + 1) (by omega) (stepAt m c n (by omega) k0_pay2))) := by
  show accAt m c (n + 2 + 1) h = _
  rw [accAt_succ, if_neg (by omega)]
  show stepAt m c (n + 3) h (accAt m c (n + 1 + 1) _) = _
  rw [accAt_succ, if_neg (by omega)]
  show stepAt m c (n + 3) h (stepAt m c (n + 2) _ (accAt m c (n + 1) _)) = _
  rw [accAt_succ, if_neg (by omega), accAt_start m c n _ h0]

end Cert.KernelIdeal.Acc
end
-- ==== Proof.Spec.lean ====
/-
  The quantities both programs compute, stated once over the reference's vocabulary.

  An edge state es[p,e] (an integer code) and a learned state L[q,e] (a float) "match on code v" when
  es[p,e] = v and L[q,e] = v; the energy of the pair (p,q) is the number of edges e at which L[q,e] is the
  null code 0 plus, for each of the four non-null codes 2, 3, 5, 9, the number of edges matching on that code.
  Both programs end by subtracting the smallest energy from every energy.
-/
import proofs.«145659_j42271068127504_1_alg».proof.Proof.Gen.ReferenceIdeal
import Idealize.ShloMosaic.PureOps.Ideal
import Idealize.ShloMosaic.Lib.ValueIdx

noncomputable section

namespace Cert.EdgeMatch

open Idealize.ShloMosaic Idealize.ShloMosaic.ValueIdx
open Cert.ReferenceIdeal Cert.ReferenceIdeal.Facts₀

variable {F : FTy → Type} [FloatOps F]

/-- The edge states es[p,e] as both programs compute them from the node activations a0 [2048,1024], the edges' two
    end nodes a2 [8192,2] and the kept codes a3 [2]: with n0, n1 the two end nodes (a negative index wrapped by
    1024), the code table (2,3,5,9) read at 2·a0[p,n0] + a0[p,n1] (a negative position wrapped by 4), kept if it is
    one of the two codes of a3 and replaced by the null code 0 otherwise. -/
def edgeStates (a0 : IVec S2048x1024 32) (a2 : IVec S8192x2 32) (a3 : IVec S2 32) : IVec S2048x8192 32 :=
  let c : IVec S4 32 := fun i => lit0 (S4.rowMajor i)
  let v0 : IVec S8192x1 32 := extractStridedSlice S8192x1 ![0, 0] a2 slices_S8192x2_S8192x1_0_0
  let v1 : IVec S8192 32 := shapeCast S8192 v0 shapeCasts_S8192x1_S8192
  let v2 : IVec S8192 32 := broadcastInDim S8192 ![] bcast_S_S8192 (constantI S_ 32 0#32)
  let v3 : IVec S8192 1 := cmpi .slt v1 v2
  let v4 : IVec S8192 32 := broadcastInDim S8192 ![] bcast_S_S8192 (constantI S_ 32 1024#32)
  let v5 : IVec S8192 32 := addi v1 v4
  let v6 : IVec S8192 32 := select v3 v5 v1
  let v7 : IVec S8192x1 32 := broadcastInDim S8192x1 ![0] bcast_S8192_S8192x1_0 v6
  let v8 : IVec S2048x8192 32 := Host.gather gather_S2048x1024_S8192x1_S2048x8192_0_1_n_n_1_1_20481 a0 v7
  let v9 : IVec S2048x8192 32 := broadcastInDim S2048x8192 ![] bcast_S_S2048x8192 (constantI S_ 32 2#32)
  let v10 : IVec S2048x8192 32 := muli v8 v9
  let v11 : IVec S8192x1 32 := extractStridedSlice S8192x1 ![0, 1] a2 slices_S8192x2_S8192x1_0_1
  let v12 : IVec S8192 32 := shapeCast S8192 v11 shapeCasts_S8192x1_S8192
  let v13 : IVec S8192 32 := broadcastInDim S8192 ![] bcast_S_S8192 (constantI S_ 32 0#32)
  let v14 : IVec S8192 1 := cmpi .slt v12 v13
  let v15 : IVec S8192 32 := broadcastInDim S8192 ![] bcast_S_S8192 (constantI S_ 32 1024#32)
  let v16 : IVec S8192 32 := addi v12 v15
  let v17 : IVec S8192 32 := select v14 v16 v12
  let v18 : IVec S8192x1 32 := broadcastInDim S8192x1 ![0] bcast_S8192_S8192x1_0 v17
  let v19 : IVec S2048x8192 32 := Host.gather gather_S2048x1024_S8192x1_S2048x8192_0_1_n_n_1_1_20481 a0 v18
  let v20 : IVec S2048x8192 32 := addi v10 v19
  let v21 : IVec S2048x8192 32 := broadcastInDim S2048x8192 ![] bcast_S_S2048x8192 (constantI S_ 32 0#32)
  let v22 : IVec S2048x8192 1 := cmpi .slt v20 v21
  let v23 : IVec S2048x8192 32 := broadcastInDim S2048x8192 ![] bcast_S_S2048x8192 (constantI S_ 32 4#32)
  let v24 : IVec S2048x8192 32 := addi v20 v23
  let v25 : IVec S2048x8192 32 := select v22 v24 v20
  let v26 : IVec S2048x8192x1 32 := broadcastInDim S2048x8192x1 ![0, 1] bcast_S2048x8192_S2048x8192x1_0_1 v25
  let v27 : IVec S2048x8192 32 := Host.gather gather_S4_S2048x8192x1_S2048x8192_n_0_n_n_0_2_1 c v26
  let v28 : IVec S2048x8192x1 32 := broadcastInDim S2048x8192x1 ![0, 1] bcast_S2048x8192_S2048x8192x1_0_1 v27
  let v29 : IVec S1x1x2 32 := broadcastInDim S1x1x2 ![2] bcast_S2_S1x1x2_2 a3
  let v30 : IVec S2048x8192x2 32 := broadcastInDim S2048x8192x2 ![0, 1, 2] bcast_S2048x8192x1_S2048x8192x2_0_1_2 v28
  let v31 : IVec S2048x8192x2 32 := broadcastInDim S2048x8192x2 ![0, 1, 2] bcast_S1x1x2_S2048x8192x2_0_1_2 v29
  let v32 : IVec S2048x8192x2 1 := cmpi .eq v30 v31
  let v33 : IVec S2048x8192 1 := Host.reduce IntOp.ori v32 (constantI S_ 1 0#1) reducesTo_S2048x8192x2_S2048x8192_d2 h_S_
  let w0 : IVec S_ 32 := id (constantI S_ 32 0#32)
  let w1 : IVec S2048x8192 32 := broadcastInDim S2048x8192 ![] bcast_S_S2048x8192 w0
  select v33 v27 w1

/-- The null count of every learned row q — the number of edges e with L[q,e] = 0, counted in 32-bit
    integers and converted to a float — repeated along the rows of the [2048, 4096] energy array. -/
def nullRow (L : FVec F S4096x8192 .f32) : FVec F S2048x4096 .f32 :=
  let cst : FVec F S_ .f32 := constant S_ .f32 0x00000000#32
  let v35 : FVec F S4096x8192 .f32 := broadcastInDim S4096x8192 ![] bcast_S_S4096x8192 cst
  let v36 : IVec S4096x8192 1 := cmpf .oeq L v35
  let v37 : IVec S4096x8192 32 := extui 32 v36 natLt_1_32
  let c9 : IVec S_ 32 := constantI S_ 32 0#32
  let v38 : IVec S4096 32 := Host.reduce IntOp.addi v37 c9 reducesTo_S4096x8192_S4096_d1 h_S_
  let v39 : FVec F S4096 .f32 := sitofp .f32 v38
  let v40 : FVec F S1x4096 .f32 := broadcastInDim S1x4096 ![1] bcast_S4096_S1x4096_1 v39
  broadcastInDim S2048x4096 ![0, 1] bcast_S1x4096_S2048x4096_0_1 v40

/-- The last step of both programs: every energy less the smallest energy (the minimum taken from +inf). -/
def lessMin (x : FVec F S2048x4096 .f32) : FVec F S2048x4096 .f32 :=
  let inf : FVec F S_ .f32 := constant S_ .f32 0x7F800000#32
  let mn : FVec F S_ .f32 := Host.reduce FloatOps.minimumf x inf reducesTo_S2048x4096_S_d0_1 h_S_
  subf x (broadcastInDim S2048x4096 ![] bcast_S_S2048x4096 mn)

/-- The [2048, 8192] indicator "es = v" as floats, as the reference converts it (one bit, read unsigned). -/
def esIs (v : BitVec 32) (es : IVec S2048x8192 32) : FVec F S2048x8192 .f32 :=
  uitofp .f32 (cmpi .eq es (broadcastInDim S2048x8192 ![] bcast_S_S2048x8192 (constantI S_ 32 v)))

/-- The [8192, 4096] transposed indicator "L = w" (w a float word) as floats. -/
def learnedIsT (w : BitVec 32) (L : FVec F S4096x8192 .f32) : FVec F S8192x4096 .f32 :=
  transpose S8192x4096 [1, 0]
    (uitofp .f32 (cmpf .oeq L (broadcastInDim S4096x8192 ![] bcast_S_S4096x8192 (constant S_ .f32 w))))
    transposes_S4096x8192_S8192x4096_1_0

/-- The number of edges on which row p of es and row q of L match on the code (v as an integer, w as a float):
    one whole matrix product of the two indicators, over all 8192 edges. -/
def matchCount (v w : BitVec 32) (es : IVec S2048x8192 32) (L : FVec F S4096x8192 .f32) : FVec F S2048x4096 .f32 :=
  Host.dotGeneral dot_S2048x8192_S8192x4096_S2048x4096_1_0_0_1_n_n none (esIs v es) (learnedIsT w L)

/-- The reference's energies: the null counts, then the four codes' matches added in the order 2, 3, 5, 9. -/
def refEnergy (es : IVec S2048x8192 32) (L : FVec F S4096x8192 .f32) : FVec F S2048x4096 .f32 :=
  addf (addf (addf (addf (nullRow L) (matchCount 2#32 0x40000000#32 es L)) (matchCount 3#32 0x40400000#32 es L))
    (matchCount 5#32 0x40A00000#32 es L)) (matchCount 9#32 0x41100000#32 es L)

/-! ## The same, one pair (p, q) at a time, over the extended reals -/

/-- 1 if the integer code e is v, else 0. -/
def hitI (v e : BitVec 32) : EReal := FloatOps.uitofp (F := Ideal) .f32 (IntOp.cmpi .eq e v)

/-- 1 if the extended real x is the float word w's value, else 0. -/
def hitF (w : BitVec 32) (x : EReal) : EReal :=
  FloatOps.uitofp (F := Ideal) .f32 (FloatOps.cmpf (F := Ideal) (φ := .f32) .oeq x (Ideal.ofBits .f32 w))

/-- The matches of the pair (p, q) on one code at edge e. -/
def hit (v w : BitVec 32) (es : IVec S2048x8192 32) (L : FVec Ideal S4096x8192 .f32) (p : Fin 2048) (q : Fin 4096)
    (e : Fin 8192) : EReal :=
  hitI v (es (ix2 p e)) * hitF w (L (ix2 q e))

end Cert.EdgeMatch

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.KernelStepAt.lean ====
/-
  One point's update read at one entry (r, s) of the accumulator, over the extended reals:
      step x0 x1 acc (r, s) = (((acc(r,s) + B2) + B3) + B5) + B9,
  where Bv = ∑ e < 2048, [x0(r,e) = v] · [x1(s,e) = v]  — each block product a plain sum (the matrix product
  into a zero accumulator contracts the edge axis of both operands), each indicator 0 or 1: a one-bit comparison
  widened to 32 bits and read as a signed integer is the bit read unsigned.
-/
import proofs.«145659_j42271068127504_1_alg».proof.Proof.KernelPieces
import proofs.«145659_j42271068127504_1_alg».proof.Proof.Spec
import proofs.«145659_j42271068127504_1_alg».proof.Proof.LibIndexReads

set_option pp.maxSteps 5000
set_option pp.deepTerms false

noncomputable section
namespace Cert.KernelIdeal.Acc
open Idealize.ShloMosaic Idealize.ShloMosaic.ValueIdx
open Cert.KernelIdeal Cert.KernelIdeal.Gen
open Cert.EdgeMatch (hitI hitF)

/-- A bit widened to 32 bits and read as a signed integer is the bit read unsigned (0 or 1). -/
theorem sitofp_widen_bit (b : BitVec 1) :
    FloatOps.sitofp (F := Ideal) .f32 (b.setWidth 32) = FloatOps.uitofp (F := Ideal) .f32 b := by
  rcases BitVec.eq_zero_or_eq_one b with h | h <;> subst h <;> simp [FloatOps.sitofp, FloatOps.uitofp] <;> rfl

/-- The block product at (r, s): the edge axis of both operands is contracted. -/
theorem blockProduct_apply (a b : FVec Ideal S512x2048 .bf16) (r s : Fin 512) :
    matmul dot_S512x2048_S512x2048_S512x512_1_1_0_0_n_n none a b (constant S512x512 .f32 0x00000000#32) (ix2 r s)
      = ∑ e : Fin 2048, a (ix2 r e) * b (ix2 s e) := by
  refine Cert.IndexReads.matmul_zero_single dot_S512x2048_S512x2048_S512x512_1_1_0_0_n_n 2048 rfl rfl none a b (ix2 r s)
    (fun e => ix2 r e) (fun e => ix2 s e) (fun k => ?_) (fun k => ?_)
  · funext x
    apply Fin.ext
    match x with
    | ⟨0, _⟩ => rfl
    | ⟨1, _⟩ => exact (DotDims.lhsIdx_val_of_single _ rfl (ix2 r s) _).trans (contrEquiv1_symm_val _ 2048 rfl rfl k)
  · funext x
    apply Fin.ext
    match x with
    | ⟨0, _⟩ => rfl
    | ⟨1, _⟩ => exact (DotDims.rhsIdx_val_of_single _ rfl (ix2 r s) _).trans (contrEquiv1_symm_val _ 2048 rfl rfl k)

/-- One point's update at the entry (r, s). -/
theorem step_apply (x0 : Vec Ideal S512x2048 .i32) (x1 : Vec Ideal S512x2048 .f32) (acc : Vec Ideal S512x512 .f32)
    (r s : Fin 512) :
    step x0 x1 acc (ix2 r s)
      = (((acc (ix2 r s) + ∑ e : Fin 2048, hitI 2#32 (x0 (ix2 r e)) * hitF 0x40000000#32 (x1 (ix2 s e)))
          + ∑ e : Fin 2048, hitI 3#32 (x0 (ix2 r e)) * hitF 0x40400000#32 (x1 (ix2 s e)))
          + ∑ e : Fin 2048, hitI 5#32 (x0 (ix2 r e)) * hitF 0x40A00000#32 (x1 (ix2 s e)))
          + ∑ e : Fin 2048, hitI 9#32 (x0 (ix2 r e)) * hitF 0x41100000#32 (x1 (ix2 s e)) := by
  unfold step k0_pay1 k0_pay4 k0_pay5 k0_pay6 k0_pay3
  simp only [shapeCast_self, addf_apply, blockProduct_apply, truncf_apply, sitofp_apply, extui_apply, cmpf_apply,
    broadcast_apply, sitofp_widen_bit]
  rfl

end Cert.KernelIdeal.Acc
end
-- ==== Proof.KernelValue.lean ====
/-
  The product array the kernel's region leaves.  Entry (p, q) of the [2048, 4096] output lies in the output block
  (p / 512, q / 512), written back at the last point of that block's run of four; over the run the accumulator has
  received, for k = 0, 1, 2, 3 in order, the four codes' matches over edges 2048·k … 2048·k + 2047 of row p of the
  edge states and row q of the learned states.  So the region leaves ONE function of those two arrays, entry by entry.
-/
import proofs.«145659_j42271068127504_1_alg».proof.Proof.KernelAcc
import proofs.«145659_j42271068127504_1_alg».proof.Proof.KernelStepAt

set_option pp.maxSteps 5000
set_option pp.deepTerms false

noncomputable section
namespace Cert.KernelIdeal.Acc
open Idealize.ShloMosaic Idealize.ShloMosaic.TcCoe Idealize.SL.Sem Idealize.ShloMosaic.ValueIdx
open Idealize.ShloMosaic.Pipeline (Dat)
open Cert.KernelIdeal Cert.KernelIdeal.Gen
open Cert.EdgeMatch (hitI hitF hit)

/-- Edge 2048·k + e of the whole edge axis: edge e of block k. -/
abbrev edge (k : Fin 4) (e : Fin 2048) : Fin 8192 := ⟨2048 * k.val + e.val, by have := k.isLt; have := e.isLt; omega⟩

/-- The matches of the pair (p, q) on one code over the edges of block k. -/
def blockHits (v w : BitVec 32) (es : IVec S2048x8192 32) (L : FVec Ideal S4096x8192 .f32) (p : Fin 2048) (q : Fin 4096)
    (k : Fin 4) : EReal :=
  ∑ e : Fin 2048, hit v w es L p q (edge k e)

/-- One block's update of the pair's running total: the four codes in the order 2, 3, 5, 9. -/
def runStep (es : IVec S2048x8192 32) (L : FVec Ideal S4096x8192 .f32) (p : Fin 2048) (q : Fin 4096) (k : Fin 4)
    (acc : EReal) : EReal :=
  (((acc + blockHits 2#32 0x40000000#32 es L p q k) + blockHits 3#32 0x40400000#32 es L p q k)
    + blockHits 5#32 0x40A00000#32 es L p q k) + blockHits 9#32 0x41100000#32 es L p q k

/-- The pair's total as the kernel accumulates it: from zero, the four blocks in order. -/
def rawAt (es : IVec S2048x8192 32) (L : FVec Ideal S4096x8192 .f32) (p : Fin 2048) (q : Fin 4096) : EReal :=
  runStep es L p q 3 (runStep es L p q 2 (runStep es L p q 1 (runStep es L p q 0 (Ideal.ofBits .f32 0x00000000#32))))

/-- The product array: every pair's total. -/
def rawG (es : IVec S2048x8192 32) (L : FVec Ideal S4096x8192 .f32) : FVec Ideal S2048x4096 .f32 :=
  fun i => rawAt es L (i 0) (i 1)

/-- The zero block, at any entry. -/
theorem zero_apply (r s : Fin 512) : (k0_pay2 (F := Ideal)) (ix2 r s) = Ideal.ofBits .f32 0x00000000#32 := by
  unfold k0_pay2
  rw [shapeCast_self]
  rfl

/-- Four updates in a row, from the zero block, at the entry (r, s) of blocks whose rows r and s are rows p and q
    of the arrays and whose edges are the arrays' edges 2048·k + e: the pair's total. -/
theorem run_value (es : IVec S2048x8192 32) (L : FVec Ideal S4096x8192 .f32)
    (b0 b1 b2 b3 : Vec Ideal S512x2048 .i32) (l0 l1 l2 l3 : Vec Ideal S512x2048 .f32)
    (p : Fin 2048) (q : Fin 4096) (r s : Fin 512)
    (hb0 : ∀ e, b0 (ix2 r e) = es (ix2 p (edge 0 e))) (hb1 : ∀ e, b1 (ix2 r e) = es (ix2 p (edge 1 e)))
    (hb2 : ∀ e, b2 (ix2 r e) = es (ix2 p (edge 2 e))) (hb3 : ∀ e, b3 (ix2 r e) = es (ix2 p (edge 3 e)))
    (hl0 : ∀ e, l0 (ix2 s e) = L (ix2 q (edge 0 e))) (hl1 : ∀ e, l1 (ix2 s e) = L (ix2 q (edge 1 e)))
    (hl2 : ∀ e, l2 (ix2 s e) = L (ix2 q (edge 2 e))) (hl3 : ∀ e, l3 (ix2 s e) = L (ix2 q (edge 3 e))) :
    step b3 l3 (step b2 l2 (step b1 l1 (step b0 l0 (k0_pay2 (F := Ideal))))) (ix2 r s) = rawAt es L p q := by
  rw [step_apply, step_apply, step_apply, step_apply, zero_apply]
  simp only [hb0, hb1, hb2, hb3, hl0, hl1, hl2, hl3]
  rfl

end Cert.KernelIdeal.Acc
end
-- ==== Proof.KernelBlocks.lean ====
/-
  The input blocks of a grid point.  Point t = 32·i + 4·j + k of the grid (i < 4 row blocks of the edge states, j < 8
  row blocks of the learned states, k < 4 edge blocks) reads rows 512·i … of the edge states and rows 512·j … of the
  learned states, both at edges 2048·k ….  The two arrays the region finds are named es and L throughout.
-/
import proofs.«145659_j42271068127504_1_alg».proof.Proof.KernelValue

set_option pp.maxSteps 5000
set_option pp.deepTerms false

noncomputable section
namespace Cert.KernelIdeal.Acc
open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The three windows' block indices at point t, decided over the grid. -/
theorem idx_facts : ∀ t : Fin cfg0.N, win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

/-- The edge-state block of point t, at (r, e): row 512·(t/32) + r of the array, edge e of block t mod 4. -/
theorem esBlock_apply (c : Dev nD) (es : IVec S2048x8192 32) (hes : V m c (Pipeline.arrRef spec0 0) = es)
    (t : Fin cfg0.N) (r : Fin 512) (e : Fin 2048) (p : Fin 2048) (k : Fin 4)
    (hp : p.val = 512 * (t.val / 32) + r.val) (hk : k.val = t.val % 4) :
    (iblk m c 0 t : Vec Ideal S512x2048 .i32) (ix2 r e) = es (ix2 p (edge k e)) := by
  obtain ⟨e0, e1, -⟩ := idx_facts t
  unfold iblk
  rw [hes, View.read_apply]
  refine congrArg es (funext fun a => Fin.ext ?_)
  match a with
  | ⟨0, _⟩ => show win0_0.index t (0 : Fin 2) * 512 + 1 * r.val = p.val; rw [e0, hp]; omega
  | ⟨1, _⟩ => show win0_0.index t (1 : Fin 2) * 2048 + 1 * e.val = 2048 * k.val + e.val; rw [e1, hk]; omega

/-- The learned-state block of point t, at (s, e): row 512·(t/4 mod 8) + s of the array, edge e of block t mod 4. -/
theorem learnedBlock_apply (c : Dev nD) (L : FVec Ideal S4096x8192 .f32) (hL : V m c (Pipeline.arrRef spec0 1) = L)
    (t : Fin cfg0.N) (s : Fin 512) (e : Fin 2048) (q : Fin 4096) (k : Fin 4)
    (hq : q.val = 512 * (t.val / 4 % 8) + s.val) (hk : k.val = t.val % 4) :
    (iblk m c 1 t : Vec Ideal S512x2048 .f32) (ix2 s e) = L (ix2 q (edge k e)) := by
  obtain ⟨-, -, e2, e3, -⟩ := idx_facts t
  unfold iblk
  rw [hL, View.read_apply]
  refine congrArg L (funext fun a => Fin.ext ?_)
  match a with
  | ⟨0, _⟩ => show win0_1.index t (0 : Fin 2) * 512 + 1 * s.val = q.val; rw [e2, hq]; omega
  | ⟨1, _⟩ => show win0_1.index t (1 : Fin 2) * 2048 + 1 * e.val = 2048 * k.val + e.val; rw [e3, hk]; omega

end Cert.KernelIdeal.Acc
end
-- ==== Proof.KernelArray.lean ====
/-
  From blocks to the array.  The output block (i, j) is written back at the last point of its run of four (k = 3),
  and every entry of the [2048, 4096] output lies in exactly one such block, so the region leaves the product array of
  the two arrays it finds (named es and L).
-/
import proofs.«145659_j42271068127504_1_alg».proof.Proof.KernelBlocks

set_option pp.maxSteps 5000
set_option pp.deepTerms false

noncomputable section
namespace Cert.KernelIdeal.Acc
open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The accumulator after the last point n + 3 of a run, at the entry (r, s): the total of the pair of rows
    (512·((n+3)/32) + r, 512·((n+3)/4 mod 8) + s). -/
theorem accAt_apply (c : Dev nD) (es : IVec S2048x8192 32) (hes : V m c (Pipeline.arrRef spec0 0) = es)
    (L : FVec Ideal S4096x8192 .f32) (hL : V m c (Pipeline.arrRef spec0 1) = L)
    (n : ℕ) (h0 : n % 4 = 0) (ht : n + 3 < cfg0.N) (r s : Fin 512) (p : Fin 2048) (q : Fin 4096)
    (hp : p.val = 512 * ((n + 3) / 32) + r.val) (hq : q.val = 512 * ((n + 3) / 4 % 8) + s.val) :
    accAt m c (n + 3) ht (ix2 r s) = rawAt es L p q := by
  have hN : cfg0.N = 128 := N_0
  have hn : n + 3 < 128 := hN ▸ ht
  rw [accAt_run m c n h0 ht]
  unfold stepAt
  exact run_value es L (iblk m c 0 ⟨n, by omega⟩) (iblk m c 0 ⟨n + 1, by omega⟩) (iblk m c 0 ⟨n + 2, by omega⟩) (iblk m c 0 ⟨n + 3, ht⟩)
    (iblk m c 1 ⟨n, by omega⟩) (iblk m c 1 ⟨n + 1, by omega⟩) (iblk m c 1 ⟨n + 2, by omega⟩) (iblk m c 1 ⟨n + 3, ht⟩) p q r s
    (fun e => esBlock_apply m c es hes ⟨n, by omega⟩ r e p 0 (by dsimp only; omega) (by dsimp only; omega))
    (fun e => esBlock_apply m c es hes ⟨n + 1, by omega⟩ r e p 1 (by dsimp only; omega) (by dsimp only; omega))
    (fun e => esBlock_apply m c es hes ⟨n + 2, by omega⟩ r e p 2 (by dsimp only; omega) (by dsimp only; omega))
    (fun e => esBlock_apply m c es hes ⟨n + 3, ht⟩ r e p 3 (by dsimp only; omega) (by dsimp only; omega))
    (fun e => learnedBlock_apply m c L hL ⟨n, by omega⟩ s e q 0 (by dsimp only; omega) (by dsimp only; omega))
    (fun e => learnedBlock_apply m c L hL ⟨n + 1, by omega⟩ s e q 1 (by dsimp only; omega) (by dsimp only; omega))
    (fun e => learnedBlock_apply m c L hL ⟨n + 2, by omega⟩ s e q 2 (by dsimp only; omega) (by dsimp only; omega))
    (fun e => learnedBlock_apply m c L hL ⟨n + 3, ht⟩ s e q 3 (by dsimp only; omega) (by dsimp only; omega))

/-- What a point that writes the output back writes: its block of the product array. -/
theorem flushed_eq (c : Dev nD) (es : IVec S2048x8192 32) (hes : V m c (Pipeline.arrRef spec0 0) = es)
    (L : FVec Ideal S4096x8192 .f32) (hL : V m c (Pipeline.arrRef spec0 1) = L)
    (t : Fin cfg0.N) (hf : (cfg0.win 2).flush t = true) :
    (dats m 0 c).flushed 2 t = ((cfg0.win 2).blk t).view.read (Elt Ideal) (rawG es L) := by
  have h3 : t.val % 4 = 3 := (flush0_2 t).mp hf
  have hN : cfg0.N = 128 := N_0
  show (cfg0.win 2).cut (grid0.coords t) ((dats m 0 c).after 2 t) = _
  rw [after0_2, outsAt_fst m c t.val t.isLt h3]
  obtain ⟨tv, ht⟩ := t
  dsimp only at h3
  obtain ⟨n, rfl⟩ : ∃ n, tv = n + 3 := ⟨tv - 3, by omega⟩
  have h0 : n % 4 = 0 := by omega
  have hn : n + 3 < 128 := hN ▸ ht
  obtain ⟨-, -, -, -, e4, e5⟩ := idx_facts ⟨n + 3, ht⟩
  dsimp only at e4 e5
  funext j
  obtain ⟨r, s, rfl⟩ : ∃ (r s : Fin 512), j = ix2 r s := ⟨j 0, j 1, eq_ix2 j⟩
  have hr := r.isLt
  have hs := s.isLt
  rw [View.read_apply]
  have hemb : ((cfg0.win 2).blk ⟨n + 3, ht⟩).view.emb (ix2 r s)
      = ix2 (⟨512 * ((n + 3) / 32) + r.val, by omega⟩ : Fin 2048) (⟨512 * ((n + 3) / 4 % 8) + s.val, by omega⟩ : Fin 4096) := by
    funext a
    apply Fin.ext
    match a with
    | ⟨0, _⟩ => show win0_2.index ⟨n + 3, ht⟩ (0 : Fin 2) * 512 + 1 * r.val = 512 * ((n + 3) / 32) + r.val; rw [e4]; omega
    | ⟨1, _⟩ => show win0_2.index ⟨n + 3, ht⟩ (1 : Fin 2) * 512 + 1 * s.val = 512 * ((n + 3) / 4 % 8) + s.val; rw [e5]; omega
  rw [hemb]
  exact accAt_apply m c es hes L hL n h0 ht r s _ _ rfl rfl

/-- An entry of the output is in point t's block iff each coordinate is in the block's range on its axis. -/
theorem mem_blk (t : Fin cfg0.N) (i : S2048x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v40).slice (win0_2.rect t)).set ↔ _
  rw [View.set_slice_whole, Rect.mem_set_unit]
  exact Iff.rfl

/-- Every entry (p, q) is in the block written back at point 32·(p/512) + 4·(q/512) + 3. -/
theorem cover (i : S2048x4096.Idx) :
    ∃ t : Fin cfg0.N, (cfg0.win 2).flush t = true ∧ i ∈ ((cfg0.win 2).blk t).view.set := by
  have hi0 : (i 0 : Nat) < 2048 := (i 0).isLt
  have hi1 : (i 1 : Nat) < 4096 := (i 1).isLt
  have hN : cfg0.N = 128 := N_0
  have ht : 32 * ((i 0).val / 512) + 4 * ((i 1).val / 512) + 3 < cfg0.N := by rw [hN]; omega
  obtain ⟨-, -, -, -, e4, e5⟩ := idx_facts ⟨32 * ((i 0).val / 512) + 4 * ((i 1).val / 512) + 3, ht⟩
  dsimp only at e4 e5
  refine ⟨⟨32 * ((i 0).val / 512) + 4 * ((i 1).val / 512) + 3, ht⟩, (flush0_2 _).mpr (by dsimp only; omega), ?_⟩
  rw [mem_blk]
  intro a
  match a with
  | ⟨0, _⟩ =>
    show win0_2.index _ (0 : Fin 2) * 512 ≤ (i 0).val ∧ (i 0).val < win0_2.index _ (0 : Fin 2) * 512 + 512
    rw [e4]; omega
  | ⟨1, _⟩ =>
    show win0_2.index _ (1 : Fin 2) * 512 ≤ (i 1).val ∧ (i 1).val < win0_2.index _ (1 : Fin 2) * 512 + 512
    rw [e5]; omega

/-- The output array after the region: the product array of the two arrays the region finds. -/
theorem final (c : Dev nD) (es : IVec S2048x8192 32) (hes : V m c (Pipeline.arrRef spec0 0) = es)
    (L : FVec Ideal S4096x8192 .f32) (hL : V m c (Pipeline.arrRef spec0 1) = L) :
    (dats m 0 c).arrAt 2 cfg0.N = rawG es L :=
  (dats m 0 c).arrAt_eq_of_cover 2 (rawG es L) (flushed_eq m c es hes L hL) cover

end Cert.KernelIdeal.Acc
end
-- ==== Proof.SpecParts.lean ====
/-
  The edge states in two parts: the code of every (point, edge) pair before the filter, and the mask "the code is one
  of the two kept codes"; the edge states are the code where the mask holds and the null code elsewhere.
-/
import proofs.«145659_j42271068127504_1_alg».proof.Proof.Spec

noncomputable section

namespace Cert.EdgeMatch

open Idealize.ShloMosaic Idealize.ShloMosaic.ValueIdx
open Cert.ReferenceIdeal Cert.ReferenceIdeal.Facts₀

/-- The code of the pair (p, e) before the filter: the table (2,3,5,9) read at 2·a0[p,n0] + a0[p,n1]. -/
def codeOf (a0 : IVec S2048x1024 32) (a2 : IVec S8192x2 32) : IVec S2048x8192 32 :=
  let c : IVec S4 32 := fun i => lit0 (S4.rowMajor i)
  let v0 : IVec S8192x1 32 := extractStridedSlice S8192x1 ![0, 0] a2 slices_S8192x2_S8192x1_0_0
  let v1 : IVec S8192 32 := shapeCast S8192 v0 shapeCasts_S8192x1_S8192
  let v2 : IVec S8192 32 := broadcastInDim S8192 ![] bcast_S_S8192 (constantI S_ 32 0#32)
  let v3 : IVec S8192 1 := cmpi .slt v1 v2
  let v4 : IVec S8192 32 := broadcastInDim S8192 ![] bcast_S_S8192 (constantI S_ 32 1024#32)
  let v5 : IVec S8192 32 := addi v1 v4
  let v6 : IVec S8192 32 := select v3 v5 v1
  let v7 : IVec S8192x1 32 := broadcastInDim S8192x1 ![0] bcast_S8192_S8192x1_0 v6
  let v8 : IVec S2048x8192 32 := Host.gather gather_S2048x1024_S8192x1_S2048x8192_0_1_n_n_1_1_20481 a0 v7
  let v9 : IVec S2048x8192 32 := broadcastInDim S2048x8192 ![] bcast_S_S2048x8192 (constantI S_ 32 2#32)
  let v10 : IVec S2048x8192 32 := muli v8 v9
  let v11 : IVec S8192x1 32 := extractStridedSlice S8192x1 ![0, 1] a2 slices_S8192x2_S8192x1_0_1
  let v12 : IVec S8192 32 := shapeCast S8192 v11 shapeCasts_S8192x1_S8192
  let v13 : IVec S8192 32 := broadcastInDim S8192 ![] bcast_S_S8192 (constantI S_ 32 0#32)
  let v14 : IVec S8192 1 := cmpi .slt v12 v13
  let v15 : IVec S8192 32 := broadcastInDim S8192 ![] bcast_S_S8192 (constantI S_ 32 1024#32)
  let v16 : IVec S8192 32 := addi v12 v15
  let v17 : IVec S8192 32 := select v14 v16 v12
  let v18 : IVec S8192x1 32 := broadcastInDim S8192x1 ![0] bcast_S8192_S8192x1_0 v17
  let v19 : IVec S2048x8192 32 := Host.gather gather_S2048x1024_S8192x1_S2048x8192_0_1_n_n_1_1_20481 a0 v18
  let v20 : IVec S2048x8192 32 := addi v10 v19
  let v21 : IVec S2048x8192 32 := broadcastInDim S2048x8192 ![] bcast_S_S2048x8192 (constantI S_ 32 0#32)
  let v22 : IVec S2048x8192 1 := cmpi .slt v20 v21
  let v23 : IVec S2048x8192 32 := broadcastInDim S2048x8192 ![] bcast_S_S2048x8192 (constantI S_ 32 4#32)
  let v24 : IVec S2048x8192 32 := addi v20 v23
  let v25 : IVec S2048x8192 32 := select v22 v24 v20
  let v26 : IVec S2048x8192x1 32 := broadcastInDim S2048x8192x1 ![0, 1] bcast_S2048x8192_S2048x8192x1_0_1 v25
  let v27 : IVec S2048x8192 32 := Host.gather gather_S4_S2048x8192x1_S2048x8192_n_0_n_n_0_2_1 c v26
  v27

/-- The mask: the code is one of the two codes of a3. -/
def kept (a0 : IVec S2048x1024 32) (a2 : IVec S8192x2 32) (a3 : IVec S2 32) : IVec S2048x8192 1 :=
  let v27 : IVec S2048x8192 32 := codeOf a0 a2
  let v28 : IVec S2048x8192x1 32 := broadcastInDim S2048x8192x1 ![0, 1] bcast_S2048x8192_S2048x8192x1_0_1 v27
  let v29 : IVec S1x1x2 32 := broadcastInDim S1x1x2 ![2] bcast_S2_S1x1x2_2 a3
  let v30 : IVec S2048x8192x2 32 := broadcastInDim S2048x8192x2 ![0, 1, 2] bcast_S2048x8192x1_S2048x8192x2_0_1_2 v28
  let v31 : IVec S2048x8192x2 32 := broadcastInDim S2048x8192x2 ![0, 1, 2] bcast_S1x1x2_S2048x8192x2_0_1_2 v29
  let v32 : IVec S2048x8192x2 1 := cmpi .eq v30 v31
  Host.reduce IntOp.ori v32 (constantI S_ 1 0#1) reducesTo_S2048x8192x2_S2048x8192_d2 h_S_

/-- The edge states are the code where it is kept, the null code elsewhere. -/
theorem edgeStates_eq (a0 : IVec S2048x1024 32) (a2 : IVec S8192x2 32) (a3 : IVec S2 32) :
    edgeStates a0 a2 a3
      = select (kept a0 a2 a3) (codeOf a0 a2)
          (broadcastInDim S2048x8192 ![] bcast_S_S2048x8192 (id (constantI S_ 32 0#32))) := rfl

variable {F : FTy → Type} [FloatOps F]

/-- The null count of every learned row q: the number of edges e with L[q,e] = 0, as a float. -/
def nullCount (L : FVec F S4096x8192 .f32) : FVec F S4096 .f32 :=
  let cst : FVec F S_ .f32 := constant S_ .f32 0x00000000#32
  let v35 : FVec F S4096x8192 .f32 := broadcastInDim S4096x8192 ![] bcast_S_S4096x8192 cst
  let v36 : IVec S4096x8192 1 := cmpf .oeq L v35
  let v37 : IVec S4096x8192 32 := extui 32 v36 natLt_1_32
  let c9 : IVec S_ 32 := constantI S_ 32 0#32
  let v38 : IVec S4096 32 := Host.reduce IntOp.addi v37 c9 reducesTo_S4096x8192_S4096_d1 h_S_
  sitofp .f32 v38

/-- The null counts repeated along the rows of the energy array. -/
theorem nullRow_eq (L : FVec F S4096x8192 .f32) :
    nullRow L = broadcastInDim S2048x4096 ![0, 1] bcast_S1x4096_S2048x4096_0_1
      (broadcastInDim S1x4096 ![1] bcast_S4096_S1x4096_1 (nullCount L)) := rfl

end Cert.EdgeMatch

end
-- ==== Proof.KernelRun.lean ====
/-
  The kernel's program, read: the host lines before the region compute the edge states and the null counts, the region
  leaves the product array, and the host lines after it add the null counts to it and subtract the smallest energy.
-/
import proofs.«145659_j42271068127504_1_alg».proof.Proof.KernelArray
import proofs.«145659_j42271068127504_1_alg».proof.Proof.SpecParts
import Idealize.ShloMosaic.Lib.StableHlo.Run

set_option pp.maxSteps 5000
set_option pp.deepTerms false

noncomputable section
namespace Cert.KernelIdeal.Acc
open Idealize.ShloMosaic Idealize.ShloMosaic.TcCoe Idealize.SL.Sem Idealize.ShloMosaic.ValueIdx
open Idealize.ShloMosaic.Pipeline (Dat)
open Idealize.ShloMosaic.StableHlo (after after_cons after_nil)
open Cert.KernelIdeal Cert.KernelIdeal.Gen

/-- A line of operations run in two stretches. -/
theorem after_append (xs ys : List (HloOp τ sig (Elt Ideal))) (W : Valuation τ sig (Elt Ideal)) :
    after (xs ++ ys) W = after ys (after xs W) := by
  induction xs generalizing W with
  | nil => rfl
  | cons x xs ih => simp only [List.cons_append, after_cons, ih]

variable (m : (ℓ : Loc nD τ sig) → Buf (Elt Ideal) ℓ) (ρ : Dev nD → PrngReg)

/-- The memory as launched, as a valuation of core c's buffers. -/
abbrev M0 (c : Dev nD) : Valuation τ sig (Elt Ideal) := fun b => m (c, b)

attribute [local irreducible] Host.reduce Host.gather in
set_option maxHeartbeats 4000000 in
/-- After the first stretch of host lines: the codes before the filter. -/
theorem code_eq (c : Dev nD) : (after hostOps0 (M0 m c) (Proc.devRef .tc main_v27) : S2048x8192.Idx → BitVec 32)
    = Cert.EdgeMatch.codeOf (m ((c : Thread nD τ).loc main_arg0)) (m ((c : Thread nD τ).loc main_arg2)) := by
  simp only [hostOps0]
  after_results_simp
  rfl

attribute [local irreducible] Host.reduce Host.gather in
set_option maxHeartbeats 4000000 in
/-- After the first stretch of host lines: the mask of kept codes. -/
theorem kept_eq (c : Dev nD) : (after hostOps0 (M0 m c) (Proc.devRef .tc main_v33) : S2048x8192.Idx → BitVec 1)
    = Cert.EdgeMatch.kept (m ((c : Thread nD τ).loc main_arg0)) (m ((c : Thread nD τ).loc main_arg2)) (m ((c : Thread nD τ).loc main_arg3)) := by
  simp only [hostOps0]
  after_results_simp
  rfl

set_option maxHeartbeats 4000000 in
/-- After the first stretch of host lines: the null code. -/
theorem null_eq (c : Dev nD) : (after hostOps0 (M0 m c) (Proc.devRef .tc main_c_8) : S_.Idx → BitVec 32)
    = constantI S_ 32 0#32 := by
  simp only [hostOps0]
  after_results_simp

set_option maxHeartbeats 4000000 in
/-- The first two stretches of host lines leave the learned states as launched. -/
theorem learned_kept (c : Dev nD) : after hostOps0_1 (after hostOps0 (M0 m c)) (Proc.devRef .tc main_arg1)
    = m ((c : Thread nD τ).loc main_arg1) := by
  simp only [hostOps0, hostOps0_1]
  after_results_simp

/-- The edge states the region finds are the ones both programs compute from the arguments. -/
theorem V_edgeStates (c : Dev nD) : V m c (Pipeline.arrRef spec0 0)
    = Cert.EdgeMatch.edgeStates (m ((c : Thread nD τ).loc main_arg0)) (m ((c : Thread nD τ).loc main_arg2)) (m ((c : Thread nD τ).loc main_arg3)) := by
  have h27 := code_eq m c
  have h33 := kept_eq m c
  have h8 := null_eq m c
  rw [Cert.EdgeMatch.edgeStates_eq, ← h27, ← h33]
  show after (List.flatten [hostOps0, hostOps0_1, hostOps0_2]) (M0 m c) (Proc.devRef .tc main_v34) = _
  simp only [List.flatten_cons, List.flatten_nil, List.append_nil]
  rw [after_append, after_append]
  generalize after hostOps0 (M0 m c) = W at h8 ⊢
  simp only [hostOps0_1, hostOps0_2]
  after_results
  rw [h8]
  rfl

/-- The null counts the host lines before the region compute. -/
theorem V_nullCount (c : Dev nD) : (V0 m c (Proc.devRef .tc main_v39) : S4096.Idx → EReal)
    = Cert.EdgeMatch.nullCount (F := Ideal) (m ((c : Thread nD τ).loc main_arg1)) := by
  have hL := learned_kept m c
  show after (List.flatten [hostOps0, hostOps0_1, hostOps0_2]) (M0 m c) (Proc.devRef .tc main_v39) = _
  simp only [List.flatten_cons, List.flatten_nil, List.append_nil]
  rw [after_append, after_append]
  generalize after hostOps0_1 (after hostOps0 (M0 m c)) = W at hL ⊢
  simp only [hostOps0_2]
  after_results
  rw [hL]
  rfl

/-- The host lines after the region: the product array plus the null counts, less the smallest energy. -/
theorem tail_eq (c : Dev nD) (es : IVec S2048x8192 32) (hes : V m c (Pipeline.arrRef spec0 0) = es)
    (L : FVec Ideal S4096x8192 .f32) (hL : V m c (Pipeline.arrRef spec0 1) = L)
    (hnc : (V0 m c (Proc.devRef .tc main_v39) : S4096.Idx → EReal) = Cert.EdgeMatch.nullCount (F := Ideal) L) :
    Pipeline.afterTail₀ cfgs (dats m) 0 (V0 m) [hostOps1] c main_v46
      = Cert.EdgeMatch.lessMin (F := Ideal) (addf (rawG es L) (Cert.EdgeMatch.nullRow (F := Ideal) L)) := by
  unfold Pipeline.afterTail₀
  simp only [List.flatten_cons, List.flatten_nil, List.append_nil]
  have h40 := (Pipeline.withArrays_arr spec0 launch0.win.arr_inj c (V0 m c) (fun w => (dats m 0 c).arrAt w (cfgs 0).N) 2).trans
    (final m c es hes L hL)
  have h39 := (Pipeline.withArrays_of_ne spec0 c (V0 m c) (fun w => (dats m 0 c).arrAt w (cfgs 0).N) main_v39
    (by exact (by decide : ∀ w, Pipeline.arrRef spec0 w ≠ main_v39))).trans hnc
  generalize Pipeline.withArrays (cfgs 0).spec c (V0 m c) (fun w => (dats m 0 c).arrAt w (cfgs 0).N) = Wt at h40 h39 ⊢
  simp only [hostOps1]
  after_results
  rw [h40, h39, Cert.EdgeMatch.nullRow_eq]
  rfl

/-- The kernel's program at the ideal values: every weakly fair execution ends with the result array at the
    energies less their minimum — energies = product array + null counts — and the arguments unchanged. -/
theorem run : θ_run defs (onTc (τ := τ) (main (F := Ideal))) ⟨m, fun _ => 0, ρ⟩ fun r => ∀ c : Dev nD,
      r.2.mem ((c.tc : Thread nD τ).loc main_v46)
        = Cert.EdgeMatch.lessMin (F := Ideal) (addf
            (rawG (Cert.EdgeMatch.edgeStates (m ((c.tc : Thread nD τ).loc main_arg0)) (m ((c.tc : Thread nD τ).loc main_arg2)) (m ((c.tc : Thread nD τ).loc main_arg3)))
              (m ((c.tc : Thread nD τ).loc main_arg1)))
            (Cert.EdgeMatch.nullRow (F := Ideal) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v46 (Pipeline.mem_restRefs_of main_v46 (by decide) (by decide))).trans
        (tail_eq m c _ (V_edgeStates m c) _ (V_main_arg1 m c) (V_nullCount m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Acc
end
-- ==== Proof.RefRun.lean ====
/-
  The reference program's run, read back as one closed term.

  The reference's @main is a straight line of 104 tensor operations: each reads buffers written earlier (or an
  argument) and writes one buffer of its own, and the one call it makes (a select against a broadcast scalar) is
  three more such operations on the call's own buffers. Running them in order from any memory therefore leaves
  every buffer at the fold of the operations' results over the launch contents. The fold is read in eight
  stretches: the operations before the call (the codes before the filter, the mask of kept codes, the null
  code); the call (the select of the two); the null counts of L; the matches on each of the four codes, added one
  after the other; the minimum subtracted. Each stretch, from ANY contents of the buffers, leaves the one buffer
  later stretches read at a term of Spec.lean over the buffers it read, and leaves every buffer it does not write
  as it was. Composed, the result buffer holds `lessMin (refEnergy (edgeStates a0 a2 a3) L)` and the four
  arguments are unchanged.
-/
import proofs.«145659_j42271068127504_1_alg».proof.Proof.Spec
import proofs.«145659_j42271068127504_1_alg».proof.Proof.SpecParts
import Idealize.ShloMosaic.Lib.StableHlo.Run

set_option Elab.async false

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- @main's 104 operations, in order; the call's three (the scalar passed through, its broadcast, the select)
    stand where the call stands, over the call's own buffers. -/
abbrev ops : List (HloOp τ sig (Elt F)) :=
  [ StableHlo.nullary main_c (fun i => lit0 (S4.rowMajor i)),
    StableHlo.unary main_arg2 main_v0 ((extractStridedSlice S8192x1 ![0, 0] · slices_S8192x2_S8192x1_0_0) : (⟨S8192x2, .i32⟩ : BufTy).Contents (Elt F) → (⟨S8192x1, .i32⟩ : BufTy).Contents (Elt F)),
    StableHlo.reshape main_v0 main_v1 rfl shapeCasts_S8192x1_S8192,
    StableHlo.nullary main_c_0 (constantI S_ 32 0#32),
    StableHlo.unary main_c_0 main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 1024#32),
    StableHlo.unary main_c_1 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_arg0 main_v7 main_v8 ((fun x i => Host.gather gather_S2048x1024_S8192x1_S2048x8192_0_1_n_n_1_1_20481 x i) : (⟨S2048x1024, .i32⟩ : BufTy).Contents (Elt F) → (⟨S8192x1, .i32⟩ : BufTy).Contents (Elt F) → (⟨S2048x8192, .i32⟩ : BufTy).Contents (Elt F)),
    StableHlo.nullary main_c_2 (constantI S_ 32 2#32),
    StableHlo.unary main_c_2 main_v9 (broadcastInDim S2048x8192 ![] bcast_S_S2048x8192 : (⟨S_, .i32⟩ : BufTy).Contents (Elt F) → (⟨S2048x8192, .i32⟩ : BufTy).Contents (Elt F)),
    StableHlo.binary main_v8 main_v9 main_v10 (muli : (⟨S2048x8192, .i32⟩ : BufTy).Contents (Elt F) → (⟨S2048x8192, .i32⟩ : BufTy).Contents (Elt F) → (⟨S2048x8192, .i32⟩ : BufTy).Contents (Elt F)),
    StableHlo.unary main_arg2 main_v11 ((extractStridedSlice S8192x1 ![0, 1] · slices_S8192x2_S8192x1_0_1) : (⟨S8192x2, .i32⟩ : BufTy).Contents (Elt F) → (⟨S8192x1, .i32⟩ : BufTy).Contents (Elt F)),
    StableHlo.reshape main_v11 main_v12 rfl shapeCasts_S8192x1_S8192,
    StableHlo.nullary main_c_3 (constantI S_ 32 0#32),
    StableHlo.unary main_c_3 main_v13 (broadcastInDim S8192 ![] bcast_S_S8192 : (⟨S_, .i32⟩ : BufTy).Contents (Elt F) → (⟨S8192, .i32⟩ : BufTy).Contents (Elt F)),
    StableHlo.binary main_v12 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 1024#32),
    StableHlo.unary main_c_4 main_v15 (broadcastInDim S8192 ![] bcast_S_S8192 : (⟨S_, .i32⟩ : BufTy).Contents (Elt F) → (⟨S8192, .i32⟩ : BufTy).Contents (Elt F)),
    StableHlo.binary main_v12 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v12 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.binary main_arg0 main_v18 main_v19 ((fun x i => Host.gather gather_S2048x1024_S8192x1_S2048x8192_0_1_n_n_1_1_20481 x i) : (⟨S2048x1024, .i32⟩ : BufTy).Contents (Elt F) → (⟨S8192x1, .i32⟩ : BufTy).Contents (Elt F) → (⟨S2048x8192, .i32⟩ : BufTy).Contents (Elt F)),
    StableHlo.binary main_v10 main_v19 main_v20 (addi : (⟨S2048x8192, .i32⟩ : BufTy).Contents (Elt F) → (⟨S2048x8192, .i32⟩ : BufTy).Contents (Elt F) → (⟨S2048x8192, .i32⟩ : BufTy).Contents (Elt F)),
    StableHlo.nullary main_c_5 (constantI S_ 32 0#32),
    StableHlo.unary main_c_5 main_v21 (broadcastInDim S2048x8192 ![] bcast_S_S2048x8192 : (⟨S_, .i32⟩ : BufTy).Contents (Elt F) → (⟨S2048x8192, .i32⟩ : BufTy).Contents (Elt F)),
    StableHlo.binary main_v20 main_v21 main_v22 (cmpi .slt : (⟨S2048x8192, .i32⟩ : BufTy).Contents (Elt F) → (⟨S2048x8192, .i32⟩ : BufTy).Contents (Elt F) → (⟨S2048x8192, .i1⟩ : BufTy).Contents (Elt F)),
    StableHlo.nullary main_c_6 (constantI S_ 32 4#32),
    StableHlo.unary main_c_6 main_v23 (broadcastInDim S2048x8192 ![] bcast_S_S2048x8192 : (⟨S_, .i32⟩ : BufTy).Contents (Elt F) → (⟨S2048x8192, .i32⟩ : BufTy).Contents (Elt F)),
    StableHlo.binary main_v20 main_v23 main_v24 (addi : (⟨S2048x8192, .i32⟩ : BufTy).Contents (Elt F) → (⟨S2048x8192, .i32⟩ : BufTy).Contents (Elt F) → (⟨S2048x8192, .i32⟩ : BufTy).Contents (Elt F)),
    StableHlo.ternary main_v22 main_v24 main_v20 main_v25 (select : (⟨S2048x8192, .i1⟩ : BufTy).Contents (Elt F) → (⟨S2048x8192, .i32⟩ : BufTy).Contents (Elt F) → (⟨S2048x8192, .i32⟩ : BufTy).Contents (Elt F) → (⟨S2048x8192, .i32⟩ : BufTy).Contents (Elt F)),
    StableHlo.unary main_v25 main_v26 (broadcastInDim S2048x8192x1 ![0, 1] bcast_S2048x8192_S2048x8192x1_0_1 : (⟨S2048x8192, .i32⟩ : BufTy).Contents (Elt F) → (⟨S2048x8192x1, .i32⟩ : BufTy).Contents (Elt F)),
    StableHlo.binary main_c main_v26 main_v27 ((fun x i => Host.gather gather_S4_S2048x8192x1_S2048x8192_n_0_n_n_0_2_1 x i) : (⟨S4, .i32⟩ : BufTy).Contents (Elt F) → (⟨S2048x8192x1, .i32⟩ : BufTy).Contents (Elt F) → (⟨S2048x8192, .i32⟩ : BufTy).Contents (Elt F)),
    StableHlo.unary main_v27 main_v28 (broadcastInDim S2048x8192x1 ![0, 1] bcast_S2048x8192_S2048x8192x1_0_1 : (⟨S2048x8192, .i32⟩ : BufTy).Contents (Elt F) → (⟨S2048x8192x1, .i32⟩ : BufTy).Contents (Elt F)),
    StableHlo.unary main_arg3 main_v29 (broadcastInDim S1x1x2 ![2] bcast_S2_S1x1x2_2 : (⟨S2, .i32⟩ : BufTy).Contents (Elt F) → (⟨S1x1x2, .i32⟩ : BufTy).Contents (Elt F)),
    StableHlo.unary main_v28 main_v30 (broadcastInDim S2048x8192x2 ![0, 1, 2] bcast_S2048x8192x1_S2048x8192x2_0_1_2 : (⟨S2048x8192x1, .i32⟩ : BufTy).Contents (Elt F) → (⟨S2048x8192x2, .i32⟩ : BufTy).Contents (Elt F)),
    StableHlo.unary main_v29 main_v31 (broadcastInDim S2048x8192x2 ![0, 1, 2] bcast_S1x1x2_S2048x8192x2_0_1_2 : (⟨S1x1x2, .i32⟩ : BufTy).Contents (Elt F) → (⟨S2048x8192x2, .i32⟩ : BufTy).Contents (Elt F)),
    StableHlo.binary main_v30 main_v31 main_v32 (cmpi .eq : (⟨S2048x8192x2, .i32⟩ : BufTy).Contents (Elt F) → (⟨S2048x8192x2, .i32⟩ : BufTy).Contents (Elt F) → (⟨S2048x8192x2, .i1⟩ : BufTy).Contents (Elt F)),
    StableHlo.nullary main_c_7 (constantI S_ 1 0#1),
    StableHlo.binary main_v32 main_c_7 main_v33 ((fun x v => Host.reduce IntOp.ori x v reducesTo_S2048x8192x2_S2048x8192_d2 h_S_) : (⟨S2048x8192x2, .i1⟩ : BufTy).Contents (Elt F) → (⟨S_, .i1⟩ : BufTy).Contents (Elt F) → (⟨S2048x8192, .i1⟩ : BufTy).Contents (Elt F)),
    StableHlo.nullary main_c_8 (constantI S_ 32 0#32),
    StableHlo.TRef.unary (.of main_c_8 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2048x8192, .i32⟩) (broadcastInDim S2048x8192 ![] bcast_S_S2048x8192),
    StableHlo.TRef.ternary (.of main_v33 : StableHlo.TRef sig ⟨S2048x8192, .i1⟩) (.of main_v27 : StableHlo.TRef sig ⟨S2048x8192, .i32⟩) (.of main_call0_v1 : StableHlo.TRef sig ⟨S2048x8192, .i32⟩) (.of main_v34 : StableHlo.TRef sig ⟨S2048x8192, .i32⟩) select,
    StableHlo.nullary main_cst (constant S_ .f32 0x00000000#32),
    StableHlo.unary main_cst main_v35 (broadcastInDim S4096x8192 ![] bcast_S_S4096x8192 : (⟨S_, .f32⟩ : BufTy).Contents (Elt F) → (⟨S4096x8192, .f32⟩ : BufTy).Contents (Elt F)),
    StableHlo.binary main_arg1 main_v35 main_v36 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v36 main_v37 ((extui 32 · natLt_1_32) : (⟨S4096x8192, .i1⟩ : BufTy).Contents (Elt F) → (⟨S4096x8192, .i32⟩ : BufTy).Contents (Elt F)),
    StableHlo.nullary main_c_9 (constantI S_ 32 0#32),
    StableHlo.binary main_v37 main_c_9 main_v38 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)),
    StableHlo.unary main_v38 main_v39 (sitofp .f32 : (⟨S4096, .i32⟩ : BufTy).Contents (Elt F) → (⟨S4096, .f32⟩ : BufTy).Contents (Elt F)),
    StableHlo.unary main_v39 main_v40 (broadcastInDim S1x4096 ![1] bcast_S4096_S1x4096_1 : (⟨S4096, .f32⟩ : BufTy).Contents (Elt F) → (⟨S1x4096, .f32⟩ : BufTy).Contents (Elt F)),
    StableHlo.unary main_v40 main_v41 (broadcastInDim S2048x4096 ![0, 1] bcast_S1x4096_S2048x4096_0_1 : (⟨S1x4096, .f32⟩ : BufTy).Contents (Elt F) → (⟨S2048x4096, .f32⟩ : BufTy).Contents (Elt F)),
    StableHlo.nullary main_c_10 (constantI S_ 32 2#32),
    StableHlo.unary main_c_10 main_v42 (broadcastInDim S2048x8192 ![] bcast_S_S2048x8192 : (⟨S_, .i32⟩ : BufTy).Contents (Elt F) → (⟨S2048x8192, .i32⟩ : BufTy).Contents (Elt F)),
    StableHlo.binary main_v34 main_v42 main_v43 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v43 main_v44 (uitofp .f32 : (⟨S2048x8192, .i1⟩ : BufTy).Contents (Elt F) → (⟨S2048x8192, .f32⟩ : BufTy).Contents (Elt F)),
    StableHlo.nullary main_cst_11 (constant S_ .f32 0x40000000#32),
    StableHlo.unary main_cst_11 main_v45 (broadcastInDim S4096x8192 ![] bcast_S_S4096x8192 : (⟨S_, .f32⟩ : BufTy).Contents (Elt F) → (⟨S4096x8192, .f32⟩ : BufTy).Contents (Elt F)),
    StableHlo.binary main_arg1 main_v45 main_v46 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v46 main_v47 (uitofp .f32 : (⟨S4096x8192, .i1⟩ : BufTy).Contents (Elt F) → (⟨S4096x8192, .f32⟩ : BufTy).Contents (Elt F)),
    StableHlo.unary main_v47 main_v48 ((transpose S8192x4096 [1, 0] · transposes_S4096x8192_S8192x4096_1_0) : (⟨S4096x8192, .f32⟩ : BufTy).Contents (Elt F) → (⟨S8192x4096, .f32⟩ : BufTy).Contents (Elt F)),
    StableHlo.binary main_v44 main_v48 main_v49 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v41 main_v49 main_v50 (addf : (⟨S2048x4096, .f32⟩ : BufTy).Contents (Elt F) → (⟨S2048x4096, .f32⟩ : BufTy).Contents (Elt F) → (⟨S2048x4096, .f32⟩ : BufTy).Contents (Elt F)),
    StableHlo.nullary main_c_12 (constantI S_ 32 3#32),
    StableHlo.unary main_c_12 main_v51 (broadcastInDim S2048x8192 ![] bcast_S_S2048x8192 : (⟨S_, .i32⟩ : BufTy).Contents (Elt F) → (⟨S2048x8192, .i32⟩ : BufTy).Contents (Elt F)),
    StableHlo.binary main_v34 main_v51 main_v52 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v52 main_v53 (uitofp .f32 : (⟨S2048x8192, .i1⟩ : BufTy).Contents (Elt F) → (⟨S2048x8192, .f32⟩ : BufTy).Contents (Elt F)),
    StableHlo.nullary main_cst_13 (constant S_ .f32 0x40400000#32),
    StableHlo.unary main_cst_13 main_v54 (broadcastInDim S4096x8192 ![] bcast_S_S4096x8192 : (⟨S_, .f32⟩ : BufTy).Contents (Elt F) → (⟨S4096x8192, .f32⟩ : BufTy).Contents (Elt F)),
    StableHlo.binary main_arg1 main_v54 main_v55 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v55 main_v56 (uitofp .f32 : (⟨S4096x8192, .i1⟩ : BufTy).Contents (Elt F) → (⟨S4096x8192, .f32⟩ : BufTy).Contents (Elt F)),
    StableHlo.unary main_v56 main_v57 ((transpose S8192x4096 [1, 0] · transposes_S4096x8192_S8192x4096_1_0) : (⟨S4096x8192, .f32⟩ : BufTy).Contents (Elt F) → (⟨S8192x4096, .f32⟩ : BufTy).Contents (Elt F)),
    StableHlo.binary main_v53 main_v57 main_v58 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v50 main_v58 main_v59 (addf : (⟨S2048x4096, .f32⟩ : BufTy).Contents (Elt F) → (⟨S2048x4096, .f32⟩ : BufTy).Contents (Elt F) → (⟨S2048x4096, .f32⟩ : BufTy).Contents (Elt F)),
    StableHlo.nullary main_c_14 (constantI S_ 32 5#32),
    StableHlo.unary main_c_14 main_v60 (broadcastInDim S2048x8192 ![] bcast_S_S2048x8192 : (⟨S_, .i32⟩ : BufTy).Contents (Elt F) → (⟨S2048x8192, .i32⟩ : BufTy).Contents (Elt F)),
    StableHlo.binary main_v34 main_v60 main_v61 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v61 main_v62 (uitofp .f32 : (⟨S2048x8192, .i1⟩ : BufTy).Contents (Elt F) → (⟨S2048x8192, .f32⟩ : BufTy).Contents (Elt F)),
    StableHlo.nullary main_cst_15 (constant S_ .f32 0x40A00000#32),
    StableHlo.unary main_cst_15 main_v63 (broadcastInDim S4096x8192 ![] bcast_S_S4096x8192 : (⟨S_, .f32⟩ : BufTy).Contents (Elt F) → (⟨S4096x8192, .f32⟩ : BufTy).Contents (Elt F)),
    StableHlo.binary main_arg1 main_v63 main_v64 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v64 main_v65 (uitofp .f32 : (⟨S4096x8192, .i1⟩ : BufTy).Contents (Elt F) → (⟨S4096x8192, .f32⟩ : BufTy).Contents (Elt F)),
    StableHlo.unary main_v65 main_v66 ((transpose S8192x4096 [1, 0] · transposes_S4096x8192_S8192x4096_1_0) : (⟨S4096x8192, .f32⟩ : BufTy).Contents (Elt F) → (⟨S8192x4096, .f32⟩ : BufTy).Contents (Elt F)),
    StableHlo.binary main_v62 main_v66 main_v67 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v59 main_v67 main_v68 (addf : (⟨S2048x4096, .f32⟩ : BufTy).Contents (Elt F) → (⟨S2048x4096, .f32⟩ : BufTy).Contents (Elt F) → (⟨S2048x4096, .f32⟩ : BufTy).Contents (Elt F)),
    StableHlo.nullary main_c_16 (constantI S_ 32 9#32),
    StableHlo.unary main_c_16 main_v69 (broadcastInDim S2048x8192 ![] bcast_S_S2048x8192 : (⟨S_, .i32⟩ : BufTy).Contents (Elt F) → (⟨S2048x8192, .i32⟩ : BufTy).Contents (Elt F)),
    StableHlo.binary main_v34 main_v69 main_v70 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v70 main_v71 (uitofp .f32 : (⟨S2048x8192, .i1⟩ : BufTy).Contents (Elt F) → (⟨S2048x8192, .f32⟩ : BufTy).Contents (Elt F)),
    StableHlo.nullary main_cst_17 (constant S_ .f32 0x41100000#32),
    StableHlo.unary main_cst_17 main_v72 (broadcastInDim S4096x8192 ![] bcast_S_S4096x8192 : (⟨S_, .f32⟩ : BufTy).Contents (Elt F) → (⟨S4096x8192, .f32⟩ : BufTy).Contents (Elt F)),
    StableHlo.binary main_arg1 main_v72 main_v73 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v73 main_v74 (uitofp .f32 : (⟨S4096x8192, .i1⟩ : BufTy).Contents (Elt F) → (⟨S4096x8192, .f32⟩ : BufTy).Contents (Elt F)),
    StableHlo.unary main_v74 main_v75 ((transpose S8192x4096 [1, 0] · transposes_S4096x8192_S8192x4096_1_0) : (⟨S4096x8192, .f32⟩ : BufTy).Contents (Elt F) → (⟨S8192x4096, .f32⟩ : BufTy).Contents (Elt F)),
    StableHlo.binary main_v71 main_v75 main_v76 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v68 main_v76 main_v77 (addf : (⟨S2048x4096, .f32⟩ : BufTy).Contents (Elt F) → (⟨S2048x4096, .f32⟩ : BufTy).Contents (Elt F) → (⟨S2048x4096, .f32⟩ : BufTy).Contents (Elt F)),
    StableHlo.nullary main_cst_18 (constant S_ .f32 0x7F800000#32),
    StableHlo.binary main_v77 main_cst_18 main_v78 ((fun x v => Host.reduce FloatOps.minimumf x v reducesTo_S2048x4096_S_d0_1 h_S_) : (⟨S2048x4096, .f32⟩ : BufTy).Contents (Elt F) → (⟨S_, .f32⟩ : BufTy).Contents (Elt F) → (⟨S_, .f32⟩ : BufTy).Contents (Elt F)),
    StableHlo.unary main_v78 main_v79 (broadcastInDim S2048x4096 ![] bcast_S_S2048x4096 : (⟨S_, .f32⟩ : BufTy).Contents (Elt F) → (⟨S2048x4096, .f32⟩ : BufTy).Contents (Elt F)),
    StableHlo.binary main_v77 main_v79 main_v80 (subf : (⟨S2048x4096, .f32⟩ : BufTy).Contents (Elt F) → (⟨S2048x4096, .f32⟩ : BufTy).Contents (Elt F) → (⟨S2048x4096, .f32⟩ : BufTy).Contents (Elt F)) ]

set_option maxRecDepth 16384 in
set_option maxHeartbeats 4000000 in
/-- @main is that straight line: its two windows and the callee's body unfolded, both sides are one chain of
    steps once sequencing is reassociated. -/
theorem main_eq (c : Dev nD) : main (F := F) c = seq ops := by
  simp only [main, main_part0, main_part1, fn_where.body, seq, bind_assoc, pure_bind]

/-- No buffer and no semaphore of the signature is scoped: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches buffers of the device only. -/
theorem ops_sub : (ops : List (HloOp τ sig (Elt F))).Forall fun op => op.bufs ⊆ tcRefs τ sig :=
  ⟨nullary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., unary_bufs_sub .., unary_bufs_sub .., binary_bufs_sub .., nullary_bufs_sub ..,
    binary_bufs_sub .., nullary_bufs_sub .., unary_bufs_sub .., unary_bufs_sub .., ternary_bufs_sub .., nullary_bufs_sub ..,
    unary_bufs_sub .., binary_bufs_sub .., unary_bufs_sub .., nullary_bufs_sub .., binary_bufs_sub .., unary_bufs_sub ..,
    unary_bufs_sub .., unary_bufs_sub .., nullary_bufs_sub .., unary_bufs_sub .., binary_bufs_sub .., unary_bufs_sub ..,
    nullary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    unary_bufs_sub .., unary_bufs_sub .., binary_bufs_sub .., binary_bufs_sub .., nullary_bufs_sub .., binary_bufs_sub ..,
    unary_bufs_sub .., binary_bufs_sub ..⟩

/-! ## The eight stretches: their operations, the buffers each writes, and what each leaves -/

/-- The fold over two lists run one after the other is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first 44 operations, up to the call: the codes before the filter, the mask of kept codes, the null code. -/
def ops_pre : List (HloOp τ sig (Elt F)) :=
  [ StableHlo.nullary main_c (fun i => lit0 (S4.rowMajor i)),
    StableHlo.unary main_arg2 main_v0 ((extractStridedSlice S8192x1 ![0, 0] · slices_S8192x2_S8192x1_0_0) : (⟨S8192x2, .i32⟩ : BufTy).Contents (Elt F) → (⟨S8192x1, .i32⟩ : BufTy).Contents (Elt F)),
    StableHlo.reshape main_v0 main_v1 rfl shapeCasts_S8192x1_S8192,
    StableHlo.nullary main_c_0 (constantI S_ 32 0#32),
    StableHlo.unary main_c_0 main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 1024#32),
    StableHlo.unary main_c_1 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_arg0 main_v7 main_v8 ((fun x i => Host.gather gather_S2048x1024_S8192x1_S2048x8192_0_1_n_n_1_1_20481 x i) : (⟨S2048x1024, .i32⟩ : BufTy).Contents (Elt F) → (⟨S8192x1, .i32⟩ : BufTy).Contents (Elt F) → (⟨S2048x8192, .i32⟩ : BufTy).Contents (Elt F)),
    StableHlo.nullary main_c_2 (constantI S_ 32 2#32),
    StableHlo.unary main_c_2 main_v9 (broadcastInDim S2048x8192 ![] bcast_S_S2048x8192 : (⟨S_, .i32⟩ : BufTy).Contents (Elt F) → (⟨S2048x8192, .i32⟩ : BufTy).Contents (Elt F)),
    StableHlo.binary main_v8 main_v9 main_v10 (muli : (⟨S2048x8192, .i32⟩ : BufTy).Contents (Elt F) → (⟨S2048x8192, .i32⟩ : BufTy).Contents (Elt F) → (⟨S2048x8192, .i32⟩ : BufTy).Contents (Elt F)),
    StableHlo.unary main_arg2 main_v11 ((extractStridedSlice S8192x1 ![0, 1] · slices_S8192x2_S8192x1_0_1) : (⟨S8192x2, .i32⟩ : BufTy).Contents (Elt F) → (⟨S8192x1, .i32⟩ : BufTy).Contents (Elt F)),
    StableHlo.reshape main_v11 main_v12 rfl shapeCasts_S8192x1_S8192,
    StableHlo.nullary main_c_3 (constantI S_ 32 0#32),
    StableHlo.unary main_c_3 main_v13 (broadcastInDim S8192 ![] bcast_S_S8192 : (⟨S_, .i32⟩ : BufTy).Contents (Elt F) → (⟨S8192, .i32⟩ : BufTy).Contents (Elt F)),
    StableHlo.binary main_v12 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 1024#32),
    StableHlo.unary main_c_4 main_v15 (broadcastInDim S8192 ![] bcast_S_S8192 : (⟨S_, .i32⟩ : BufTy).Contents (Elt F) → (⟨S8192, .i32⟩ : BufTy).Contents (Elt F)),
    StableHlo.binary main_v12 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v12 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.binary main_arg0 main_v18 main_v19 ((fun x i => Host.gather gather_S2048x1024_S8192x1_S2048x8192_0_1_n_n_1_1_20481 x i) : (⟨S2048x1024, .i32⟩ : BufTy).Contents (Elt F) → (⟨S8192x1, .i32⟩ : BufTy).Contents (Elt F) → (⟨S2048x8192, .i32⟩ : BufTy).Contents (Elt F)),
    StableHlo.binary main_v10 main_v19 main_v20 (addi : (⟨S2048x8192, .i32⟩ : BufTy).Contents (Elt F) → (⟨S2048x8192, .i32⟩ : BufTy).Contents (Elt F) → (⟨S2048x8192, .i32⟩ : BufTy).Contents (Elt F)),
    StableHlo.nullary main_c_5 (constantI S_ 32 0#32),
    StableHlo.unary main_c_5 main_v21 (broadcastInDim S2048x8192 ![] bcast_S_S2048x8192 : (⟨S_, .i32⟩ : BufTy).Contents (Elt F) → (⟨S2048x8192, .i32⟩ : BufTy).Contents (Elt F)),
    StableHlo.binary main_v20 main_v21 main_v22 (cmpi .slt : (⟨S2048x8192, .i32⟩ : BufTy).Contents (Elt F) → (⟨S2048x8192, .i32⟩ : BufTy).Contents (Elt F) → (⟨S2048x8192, .i1⟩ : BufTy).Contents (Elt F)),
    StableHlo.nullary main_c_6 (constantI S_ 32 4#32),
    StableHlo.unary main_c_6 main_v23 (broadcastInDim S2048x8192 ![] bcast_S_S2048x8192 : (⟨S_, .i32⟩ : BufTy).Contents (Elt F) → (⟨S2048x8192, .i32⟩ : BufTy).Contents (Elt F)),
    StableHlo.binary main_v20 main_v23 main_v24 (addi : (⟨S2048x8192, .i32⟩ : BufTy).Contents (Elt F) → (⟨S2048x8192, .i32⟩ : BufTy).Contents (Elt F) → (⟨S2048x8192, .i32⟩ : BufTy).Contents (Elt F)),
    StableHlo.ternary main_v22 main_v24 main_v20 main_v25 (select : (⟨S2048x8192, .i1⟩ : BufTy).Contents (Elt F) → (⟨S2048x8192, .i32⟩ : BufTy).Contents (Elt F) → (⟨S2048x8192, .i32⟩ : BufTy).Contents (Elt F) → (⟨S2048x8192, .i32⟩ : BufTy).Contents (Elt F)),
    StableHlo.unary main_v25 main_v26 (broadcastInDim S2048x8192x1 ![0, 1] bcast_S2048x8192_S2048x8192x1_0_1 : (⟨S2048x8192, .i32⟩ : BufTy).Contents (Elt F) → (⟨S2048x8192x1, .i32⟩ : BufTy).Contents (Elt F)),
    StableHlo.binary main_c main_v26 main_v27 ((fun x i => Host.gather gather_S4_S2048x8192x1_S2048x8192_n_0_n_n_0_2_1 x i) : (⟨S4, .i32⟩ : BufTy).Contents (Elt F) → (⟨S2048x8192x1, .i32⟩ : BufTy).Contents (Elt F) → (⟨S2048x8192, .i32⟩ : BufTy).Contents (Elt F)),
    StableHlo.unary main_v27 main_v28 (broadcastInDim S2048x8192x1 ![0, 1] bcast_S2048x8192_S2048x8192x1_0_1 : (⟨S2048x8192, .i32⟩ : BufTy).Contents (Elt F) → (⟨S2048x8192x1, .i32⟩ : BufTy).Contents (Elt F)),
    StableHlo.unary main_arg3 main_v29 (broadcastInDim S1x1x2 ![2] bcast_S2_S1x1x2_2 : (⟨S2, .i32⟩ : BufTy).Contents (Elt F) → (⟨S1x1x2, .i32⟩ : BufTy).Contents (Elt F)),
    StableHlo.unary main_v28 main_v30 (broadcastInDim S2048x8192x2 ![0, 1, 2] bcast_S2048x8192x1_S2048x8192x2_0_1_2 : (⟨S2048x8192x1, .i32⟩ : BufTy).Contents (Elt F) → (⟨S2048x8192x2, .i32⟩ : BufTy).Contents (Elt F)),
    StableHlo.unary main_v29 main_v31 (broadcastInDim S2048x8192x2 ![0, 1, 2] bcast_S1x1x2_S2048x8192x2_0_1_2 : (⟨S1x1x2, .i32⟩ : BufTy).Contents (Elt F) → (⟨S2048x8192x2, .i32⟩ : BufTy).Contents (Elt F)),
    StableHlo.binary main_v30 main_v31 main_v32 (cmpi .eq : (⟨S2048x8192x2, .i32⟩ : BufTy).Contents (Elt F) → (⟨S2048x8192x2, .i32⟩ : BufTy).Contents (Elt F) → (⟨S2048x8192x2, .i1⟩ : BufTy).Contents (Elt F)),
    StableHlo.nullary main_c_7 (constantI S_ 1 0#1),
    StableHlo.binary main_v32 main_c_7 main_v33 ((fun x v => Host.reduce IntOp.ori x v reducesTo_S2048x8192x2_S2048x8192_d2 h_S_) : (⟨S2048x8192x2, .i1⟩ : BufTy).Contents (Elt F) → (⟨S_, .i1⟩ : BufTy).Contents (Elt F) → (⟨S2048x8192, .i1⟩ : BufTy).Contents (Elt F)),
    StableHlo.nullary main_c_8 (constantI S_ 32 0#32) ]

/-- The buffers that stretch writes. -/
abbrev ops_pre_W : List (Ref sig .tc) := [main_c, main_v0, main_v1, main_c_0, main_v2, main_v3, main_c_1, main_v4, main_v5, main_v6, main_v7, main_v8, main_c_2, main_v9, main_v10, main_v11, main_v12, main_c_3, main_v13, main_v14, main_c_4, main_v15, main_v16, main_v17, main_v18, main_v19, main_v20, main_c_5, main_v21, main_v22, main_c_6, main_v23, main_v24, main_v25, main_v26, main_v27, main_v28, main_v29, main_v30, main_v31, main_v32, main_c_7, main_v33, main_c_8]

set_option maxRecDepth 16384 in
theorem ops_pre_writes : (ops_pre : List (HloOp τ sig (Elt F))).Forall fun op => op.writes ⊆ (ops_pre_W.map (Proc.devRef (τ := τ) .tc)).toFinset := by
  simp only [ops_pre, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_pre_keep (V : Valuation τ sig (Elt F)) (r : Ref sig .tc) (h : r ∉ ops_pre_W) :
    after ops_pre V (no_index (Proc.devRef .tc r)) = V (Proc.devRef .tc r) :=
  after_of_writes_sub ops_pre V ops_pre_writes h

/-- The call's three operations: the null code passed through, its broadcast, the select. -/
def ops_call : List (HloOp τ sig (Elt F)) :=
  [ StableHlo.TRef.unary (.of main_c_8 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2048x8192, .i32⟩) (broadcastInDim S2048x8192 ![] bcast_S_S2048x8192),
    StableHlo.TRef.ternary (.of main_v33 : StableHlo.TRef sig ⟨S2048x8192, .i1⟩) (.of main_v27 : StableHlo.TRef sig ⟨S2048x8192, .i32⟩) (.of main_call0_v1 : StableHlo.TRef sig ⟨S2048x8192, .i32⟩) (.of main_v34 : StableHlo.TRef sig ⟨S2048x8192, .i32⟩) select ]

/-- The buffers that stretch writes. -/
abbrev ops_call_W : List (Ref sig .tc) := [main_call0_v0, main_call0_v1, main_v34]

set_option maxRecDepth 16384 in
theorem ops_call_writes : (ops_call : List (HloOp τ sig (Elt F))).Forall fun op => op.writes ⊆ (ops_call_W.map (Proc.devRef (τ := τ) .tc)).toFinset := by
  simp only [ops_call, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_call_keep (V : Valuation τ sig (Elt F)) (r : Ref sig .tc) (h : r ∉ ops_call_W) :
    after ops_call V (no_index (Proc.devRef .tc r)) = V (Proc.devRef .tc r) :=
  after_of_writes_sub ops_call V ops_call_writes h

/-- The next 9: the null count of every learned row, spread over the energy array's rows. -/
def ops_null : List (HloOp τ sig (Elt F)) :=
  [ StableHlo.nullary main_cst (constant S_ .f32 0x00000000#32),
    StableHlo.unary main_cst main_v35 (broadcastInDim S4096x8192 ![] bcast_S_S4096x8192 : (⟨S_, .f32⟩ : BufTy).Contents (Elt F) → (⟨S4096x8192, .f32⟩ : BufTy).Contents (Elt F)),
    StableHlo.binary main_arg1 main_v35 main_v36 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v36 main_v37 ((extui 32 · natLt_1_32) : (⟨S4096x8192, .i1⟩ : BufTy).Contents (Elt F) → (⟨S4096x8192, .i32⟩ : BufTy).Contents (Elt F)),
    StableHlo.nullary main_c_9 (constantI S_ 32 0#32),
    StableHlo.binary main_v37 main_c_9 main_v38 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)),
    StableHlo.unary main_v38 main_v39 (sitofp .f32 : (⟨S4096, .i32⟩ : BufTy).Contents (Elt F) → (⟨S4096, .f32⟩ : BufTy).Contents (Elt F)),
    StableHlo.unary main_v39 main_v40 (broadcastInDim S1x4096 ![1] bcast_S4096_S1x4096_1 : (⟨S4096, .f32⟩ : BufTy).Contents (Elt F) → (⟨S1x4096, .f32⟩ : BufTy).Contents (Elt F)),
    StableHlo.unary main_v40 main_v41 (broadcastInDim S2048x4096 ![0, 1] bcast_S1x4096_S2048x4096_0_1 : (⟨S1x4096, .f32⟩ : BufTy).Contents (Elt F) → (⟨S2048x4096, .f32⟩ : BufTy).Contents (Elt F)) ]

/-- The buffers that stretch writes. -/
abbrev ops_null_W : List (Ref sig .tc) := [main_cst, main_v35, main_v36, main_v37, main_c_9, main_v38, main_v39, main_v40, main_v41]

set_option maxRecDepth 16384 in
theorem ops_null_writes : (ops_null : List (HloOp τ sig (Elt F))).Forall fun op => op.writes ⊆ (ops_null_W.map (Proc.devRef (τ := τ) .tc)).toFinset := by
  simp only [ops_null, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_null_keep (V : Valuation τ sig (Elt F)) (r : Ref sig .tc) (h : r ∉ ops_null_W) :
    after ops_null V (no_index (Proc.devRef .tc r)) = V (Proc.devRef .tc r) :=
  after_of_writes_sub ops_null V ops_null_writes h

/-- The next 11: the matches on code 2 (the two indicators, the transpose, the product), added to the null counts. -/
def ops_code2 : List (HloOp τ sig (Elt F)) :=
  [ StableHlo.nullary main_c_10 (constantI S_ 32 2#32),
    StableHlo.unary main_c_10 main_v42 (broadcastInDim S2048x8192 ![] bcast_S_S2048x8192 : (⟨S_, .i32⟩ : BufTy).Contents (Elt F) → (⟨S2048x8192, .i32⟩ : BufTy).Contents (Elt F)),
    StableHlo.binary main_v34 main_v42 main_v43 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v43 main_v44 (uitofp .f32 : (⟨S2048x8192, .i1⟩ : BufTy).Contents (Elt F) → (⟨S2048x8192, .f32⟩ : BufTy).Contents (Elt F)),
    StableHlo.nullary main_cst_11 (constant S_ .f32 0x40000000#32),
    StableHlo.unary main_cst_11 main_v45 (broadcastInDim S4096x8192 ![] bcast_S_S4096x8192 : (⟨S_, .f32⟩ : BufTy).Contents (Elt F) → (⟨S4096x8192, .f32⟩ : BufTy).Contents (Elt F)),
    StableHlo.binary main_arg1 main_v45 main_v46 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v46 main_v47 (uitofp .f32 : (⟨S4096x8192, .i1⟩ : BufTy).Contents (Elt F) → (⟨S4096x8192, .f32⟩ : BufTy).Contents (Elt F)),
    StableHlo.unary main_v47 main_v48 ((transpose S8192x4096 [1, 0] · transposes_S4096x8192_S8192x4096_1_0) : (⟨S4096x8192, .f32⟩ : BufTy).Contents (Elt F) → (⟨S8192x4096, .f32⟩ : BufTy).Contents (Elt F)),
    StableHlo.binary main_v44 main_v48 main_v49 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v41 main_v49 main_v50 (addf : (⟨S2048x4096, .f32⟩ : BufTy).Contents (Elt F) → (⟨S2048x4096, .f32⟩ : BufTy).Contents (Elt F) → (⟨S2048x4096, .f32⟩ : BufTy).Contents (Elt F)) ]

/-- The buffers that stretch writes. -/
abbrev ops_code2_W : List (Ref sig .tc) := [main_c_10, main_v42, main_v43, main_v44, main_cst_11, main_v45, main_v46, main_v47, main_v48, main_v49, main_v50]

set_option maxRecDepth 16384 in
theorem ops_code2_writes : (ops_code2 : List (HloOp τ sig (Elt F))).Forall fun op => op.writes ⊆ (ops_code2_W.map (Proc.devRef (τ := τ) .tc)).toFinset := by
  simp only [ops_code2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_code2_keep (V : Valuation τ sig (Elt F)) (r : Ref sig .tc) (h : r ∉ ops_code2_W) :
    after ops_code2 V (no_index (Proc.devRef .tc r)) = V (Proc.devRef .tc r) :=
  after_of_writes_sub ops_code2 V ops_code2_writes h

/-- The next 11: the matches on code 3, added. -/
def ops_code3 : List (HloOp τ sig (Elt F)) :=
  [ StableHlo.nullary main_c_12 (constantI S_ 32 3#32),
    StableHlo.unary main_c_12 main_v51 (broadcastInDim S2048x8192 ![] bcast_S_S2048x8192 : (⟨S_, .i32⟩ : BufTy).Contents (Elt F) → (⟨S2048x8192, .i32⟩ : BufTy).Contents (Elt F)),
    StableHlo.binary main_v34 main_v51 main_v52 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v52 main_v53 (uitofp .f32 : (⟨S2048x8192, .i1⟩ : BufTy).Contents (Elt F) → (⟨S2048x8192, .f32⟩ : BufTy).Contents (Elt F)),
    StableHlo.nullary main_cst_13 (constant S_ .f32 0x40400000#32),
    StableHlo.unary main_cst_13 main_v54 (broadcastInDim S4096x8192 ![] bcast_S_S4096x8192 : (⟨S_, .f32⟩ : BufTy).Contents (Elt F) → (⟨S4096x8192, .f32⟩ : BufTy).Contents (Elt F)),
    StableHlo.binary main_arg1 main_v54 main_v55 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v55 main_v56 (uitofp .f32 : (⟨S4096x8192, .i1⟩ : BufTy).Contents (Elt F) → (⟨S4096x8192, .f32⟩ : BufTy).Contents (Elt F)),
    StableHlo.unary main_v56 main_v57 ((transpose S8192x4096 [1, 0] · transposes_S4096x8192_S8192x4096_1_0) : (⟨S4096x8192, .f32⟩ : BufTy).Contents (Elt F) → (⟨S8192x4096, .f32⟩ : BufTy).Contents (Elt F)),
    StableHlo.binary main_v53 main_v57 main_v58 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v50 main_v58 main_v59 (addf : (⟨S2048x4096, .f32⟩ : BufTy).Contents (Elt F) → (⟨S2048x4096, .f32⟩ : BufTy).Contents (Elt F) → (⟨S2048x4096, .f32⟩ : BufTy).Contents (Elt F)) ]

/-- The buffers that stretch writes. -/
abbrev ops_code3_W : List (Ref sig .tc) := [main_c_12, main_v51, main_v52, main_v53, main_cst_13, main_v54, main_v55, main_v56, main_v57, main_v58, main_v59]

set_option maxRecDepth 16384 in
theorem ops_code3_writes : (ops_code3 : List (HloOp τ sig (Elt F))).Forall fun op => op.writes ⊆ (ops_code3_W.map (Proc.devRef (τ := τ) .tc)).toFinset := by
  simp only [ops_code3, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_code3_keep (V : Valuation τ sig (Elt F)) (r : Ref sig .tc) (h : r ∉ ops_code3_W) :
    after ops_code3 V (no_index (Proc.devRef .tc r)) = V (Proc.devRef .tc r) :=
  after_of_writes_sub ops_code3 V ops_code3_writes h

/-- The next 11: the matches on code 5, added. -/
def ops_code5 : List (HloOp τ sig (Elt F)) :=
  [ StableHlo.nullary main_c_14 (constantI S_ 32 5#32),
    StableHlo.unary main_c_14 main_v60 (broadcastInDim S2048x8192 ![] bcast_S_S2048x8192 : (⟨S_, .i32⟩ : BufTy).Contents (Elt F) → (⟨S2048x8192, .i32⟩ : BufTy).Contents (Elt F)),
    StableHlo.binary main_v34 main_v60 main_v61 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v61 main_v62 (uitofp .f32 : (⟨S2048x8192, .i1⟩ : BufTy).Contents (Elt F) → (⟨S2048x8192, .f32⟩ : BufTy).Contents (Elt F)),
    StableHlo.nullary main_cst_15 (constant S_ .f32 0x40A00000#32),
    StableHlo.unary main_cst_15 main_v63 (broadcastInDim S4096x8192 ![] bcast_S_S4096x8192 : (⟨S_, .f32⟩ : BufTy).Contents (Elt F) → (⟨S4096x8192, .f32⟩ : BufTy).Contents (Elt F)),
    StableHlo.binary main_arg1 main_v63 main_v64 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v64 main_v65 (uitofp .f32 : (⟨S4096x8192, .i1⟩ : BufTy).Contents (Elt F) → (⟨S4096x8192, .f32⟩ : BufTy).Contents (Elt F)),
    StableHlo.unary main_v65 main_v66 ((transpose S8192x4096 [1, 0] · transposes_S4096x8192_S8192x4096_1_0) : (⟨S4096x8192, .f32⟩ : BufTy).Contents (Elt F) → (⟨S8192x4096, .f32⟩ : BufTy).Contents (Elt F)),
    StableHlo.binary main_v62 main_v66 main_v67 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v59 main_v67 main_v68 (addf : (⟨S2048x4096, .f32⟩ : BufTy).Contents (Elt F) → (⟨S2048x4096, .f32⟩ : BufTy).Contents (Elt F) → (⟨S2048x4096, .f32⟩ : BufTy).Contents (Elt F)) ]

/-- The buffers that stretch writes. -/
abbrev ops_code5_W : List (Ref sig .tc) := [main_c_14, main_v60, main_v61, main_v62, main_cst_15, main_v63, main_v64, main_v65, main_v66, main_v67, main_v68]

set_option maxRecDepth 16384 in
theorem ops_code5_writes : (ops_code5 : List (HloOp τ sig (Elt F))).Forall fun op => op.writes ⊆ (ops_code5_W.map (Proc.devRef (τ := τ) .tc)).toFinset := by
  simp only [ops_code5, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_code5_keep (V : Valuation τ sig (Elt F)) (r : Ref sig .tc) (h : r ∉ ops_code5_W) :
    after ops_code5 V (no_index (Proc.devRef .tc r)) = V (Proc.devRef .tc r) :=
  after_of_writes_sub ops_code5 V ops_code5_writes h

/-- The next 11: the matches on code 9, added: the energies. -/
def ops_code9 : List (HloOp τ sig (Elt F)) :=
  [ StableHlo.nullary main_c_16 (constantI S_ 32 9#32),
    StableHlo.unary main_c_16 main_v69 (broadcastInDim S2048x8192 ![] bcast_S_S2048x8192 : (⟨S_, .i32⟩ : BufTy).Contents (Elt F) → (⟨S2048x8192, .i32⟩ : BufTy).Contents (Elt F)),
    StableHlo.binary main_v34 main_v69 main_v70 (cmpi .eq : (⟨S2048x8192, .i32⟩ : BufTy).Contents (Elt F) → (⟨S2048x8192, .i32⟩ : BufTy).Contents (Elt F) → (⟨S2048x8192, .i1⟩ : BufTy).Contents (Elt F)),
    StableHlo.unary main_v70 main_v71 (uitofp .f32 : (⟨S2048x8192, .i1⟩ : BufTy).Contents (Elt F) → (⟨S2048x8192, .f32⟩ : BufTy).Contents (Elt F)),
    StableHlo.nullary main_cst_17 (constant S_ .f32 0x41100000#32),
    StableHlo.unary main_cst_17 main_v72 (broadcastInDim S4096x8192 ![] bcast_S_S4096x8192 : (⟨S_, .f32⟩ : BufTy).Contents (Elt F) → (⟨S4096x8192, .f32⟩ : BufTy).Contents (Elt F)),
    StableHlo.binary main_arg1 main_v72 main_v73 (cmpf .oeq : (⟨S4096x8192, .f32⟩ : BufTy).Contents (Elt F) → (⟨S4096x8192, .f32⟩ : BufTy).Contents (Elt F) → (⟨S4096x8192, .i1⟩ : BufTy).Contents (Elt F)),
    StableHlo.unary main_v73 main_v74 (uitofp .f32 : (⟨S4096x8192, .i1⟩ : BufTy).Contents (Elt F) → (⟨S4096x8192, .f32⟩ : BufTy).Contents (Elt F)),
    StableHlo.unary main_v74 main_v75 ((transpose S8192x4096 [1, 0] · transposes_S4096x8192_S8192x4096_1_0) : (⟨S4096x8192, .f32⟩ : BufTy).Contents (Elt F) → (⟨S8192x4096, .f32⟩ : BufTy).Contents (Elt F)),
    StableHlo.binary main_v71 main_v75 main_v76 ((fun l r => Host.dotGeneral dot_S2048x8192_S8192x4096_S2048x4096_1_0_0_1_n_n none l r) : (⟨S2048x8192, .f32⟩ : BufTy).Contents (Elt F) → (⟨S8192x4096, .f32⟩ : BufTy).Contents (Elt F) → (⟨S2048x4096, .f32⟩ : BufTy).Contents (Elt F)),
    StableHlo.binary main_v68 main_v76 main_v77 (addf : (⟨S2048x4096, .f32⟩ : BufTy).Contents (Elt F) → (⟨S2048x4096, .f32⟩ : BufTy).Contents (Elt F) → (⟨S2048x4096, .f32⟩ : BufTy).Contents (Elt F)) ]

/-- The buffers that stretch writes. -/
abbrev ops_code9_W : List (Ref sig .tc) := [main_c_16, main_v69, main_v70, main_v71, main_cst_17, main_v72, main_v73, main_v74, main_v75, main_v76, main_v77]

set_option maxRecDepth 16384 in
theorem ops_code9_writes : (ops_code9 : List (HloOp τ sig (Elt F))).Forall fun op => op.writes ⊆ (ops_code9_W.map (Proc.devRef (τ := τ) .tc)).toFinset := by
  simp only [ops_code9, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_code9_keep (V : Valuation τ sig (Elt F)) (r : Ref sig .tc) (h : r ∉ ops_code9_W) :
    after ops_code9 V (no_index (Proc.devRef .tc r)) = V (Proc.devRef .tc r) :=
  after_of_writes_sub ops_code9 V ops_code9_writes h

/-- The last 4: the smallest energy, spread, and subtracted. -/
def ops_min : List (HloOp τ sig (Elt F)) :=
  [ StableHlo.nullary main_cst_18 (constant S_ .f32 0x7F800000#32),
    StableHlo.binary main_v77 main_cst_18 main_v78 ((fun x v => Host.reduce FloatOps.minimumf x v reducesTo_S2048x4096_S_d0_1 h_S_) : (⟨S2048x4096, .f32⟩ : BufTy).Contents (Elt F) → (⟨S_, .f32⟩ : BufTy).Contents (Elt F) → (⟨S_, .f32⟩ : BufTy).Contents (Elt F)),
    StableHlo.unary main_v78 main_v79 (broadcastInDim S2048x4096 ![] bcast_S_S2048x4096 : (⟨S_, .f32⟩ : BufTy).Contents (Elt F) → (⟨S2048x4096, .f32⟩ : BufTy).Contents (Elt F)),
    StableHlo.binary main_v77 main_v79 main_v80 (subf : (⟨S2048x4096, .f32⟩ : BufTy).Contents (Elt F) → (⟨S2048x4096, .f32⟩ : BufTy).Contents (Elt F) → (⟨S2048x4096, .f32⟩ : BufTy).Contents (Elt F)) ]

/-- The buffers that stretch writes. -/
abbrev ops_min_W : List (Ref sig .tc) := [main_cst_18, main_v78, main_v79, main_v80]

set_option maxRecDepth 16384 in
theorem ops_min_writes : (ops_min : List (HloOp τ sig (Elt F))).Forall fun op => op.writes ⊆ (ops_min_W.map (Proc.devRef (τ := τ) .tc)).toFinset := by
  simp only [ops_min, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that stretch does not write keeps its contents through it. -/
theorem ops_min_keep (V : Valuation τ sig (Elt F)) (r : Ref sig .tc) (h : r ∉ ops_min_W) :
    after ops_min V (no_index (Proc.devRef .tc r)) = V (Proc.devRef .tc r) :=
  after_of_writes_sub ops_min V ops_min_writes h

/-! ## What each stretch computes, from any contents -/

attribute [local irreducible] Host.reduce Host.gather in
set_option maxRecDepth 16384 in
set_option maxHeartbeats 4000000 in
theorem pre_v27 (V : Valuation τ sig (Elt F)) :
    after ops_pre V (no_index (Proc.devRef .tc main_v27)) = Cert.EdgeMatch.codeOf (V (Proc.devRef .tc main_arg0)) (V (Proc.devRef .tc main_arg2)) := by
  simp only [ops_pre]
  after_results_simp
  rfl

attribute [local irreducible] Host.reduce Host.gather in
set_option maxRecDepth 16384 in
set_option maxHeartbeats 4000000 in
theorem pre_v33 (V : Valuation τ sig (Elt F)) :
    after ops_pre V (no_index (Proc.devRef .tc main_v33)) = Cert.EdgeMatch.kept (V (Proc.devRef .tc main_arg0)) (V (Proc.devRef .tc main_arg2)) (V (Proc.devRef .tc main_arg3)) := by
  simp only [ops_pre]
  after_results_simp
  rfl

attribute [local irreducible] Host.reduce Host.gather in
set_option maxRecDepth 16384 in
set_option maxHeartbeats 4000000 in
theorem pre_c8 (V : Valuation τ sig (Elt F)) :
    after ops_pre V (no_index (Proc.devRef .tc main_c_8)) = constantI S_ 32 0#32 := by
  simp only [ops_pre]
  after_results_simp

attribute [local irreducible] Host.reduce Host.gather in
theorem call_v34 (V : Valuation τ sig (Elt F)) :
    after ops_call V (no_index (Proc.devRef .tc main_v34)) = select (V (Proc.devRef .tc main_v33)) (V (Proc.devRef .tc main_v27)) (broadcastInDim S2048x8192 ![] bcast_S_S2048x8192 (id (V (Proc.devRef .tc main_c_8)))) := by
  simp only [ops_call]
  after_results_simp
  rfl

attribute [local irreducible] Host.reduce Host.gather in
theorem null_v41 (V : Valuation τ sig (Elt F)) :
    after ops_null V (no_index (Proc.devRef .tc main_v41)) = Cert.EdgeMatch.nullRow (V (Proc.devRef .tc main_arg1)) := by
  simp only [ops_null]
  after_results_simp
  rfl

attribute [local irreducible] Host.reduce Host.gather in
theorem code2_v50 (V : Valuation τ sig (Elt F)) :
    after ops_code2 V (no_index (Proc.devRef .tc main_v50)) = addf (V (Proc.devRef .tc main_v41)) (Cert.EdgeMatch.matchCount 2#32 0x40000000#32 (V (Proc.devRef .tc main_v34)) (V (Proc.devRef .tc main_arg1))) := by
  simp only [ops_code2]
  after_results_simp
  rfl

attribute [local irreducible] Host.reduce Host.gather in
theorem code3_v59 (V : Valuation τ sig (Elt F)) :
    after ops_code3 V (no_index (Proc.devRef .tc main_v59)) = addf (V (Proc.devRef .tc main_v50)) (Cert.EdgeMatch.matchCount 3#32 0x40400000#32 (V (Proc.devRef .tc main_v34)) (V (Proc.devRef .tc main_arg1))) := by
  simp only [ops_code3]
  after_results_simp
  rfl

attribute [local irreducible] Host.reduce Host.gather in
theorem code5_v68 (V : Valuation τ sig (Elt F)) :
    after ops_code5 V (no_index (Proc.devRef .tc main_v68)) = addf (V (Proc.devRef .tc main_v59)) (Cert.EdgeMatch.matchCount 5#32 0x40A00000#32 (V (Proc.devRef .tc main_v34)) (V (Proc.devRef .tc main_arg1))) := by
  simp only [ops_code5]
  after_results_simp
  rfl

attribute [local irreducible] Host.reduce Host.gather in
theorem code9_v77 (V : Valuation τ sig (Elt F)) :
    after ops_code9 V (no_index (Proc.devRef .tc main_v77)) = addf (V (Proc.devRef .tc main_v68)) (Cert.EdgeMatch.matchCount 9#32 0x41100000#32 (V (Proc.devRef .tc main_v34)) (V (Proc.devRef .tc main_arg1))) := by
  simp only [ops_code9]
  after_results_simp
  rfl

attribute [local irreducible] Host.reduce Host.gather in
theorem min_v80 (V : Valuation τ sig (Elt F)) :
    after ops_min V (no_index (Proc.devRef .tc main_v80)) = Cert.EdgeMatch.lessMin (V (Proc.devRef .tc main_v77)) := by
  simp only [ops_min]
  after_results_simp
  rfl

/-! ## The whole line -/

set_option maxRecDepth 16384 in
/-- The whole line is the eight stretches in order. -/
theorem ops_split : (ops : List (HloOp τ sig (Elt F))) = ops_pre ++ (ops_call ++ (ops_null ++ (ops_code2 ++ (ops_code3 ++ (ops_code5 ++ (ops_code9 ++ ops_min)))))) := rfl

set_option maxRecDepth 16384 in
set_option maxHeartbeats 4000000 in
/-- The result buffer after the whole line, from any contents: each stretch read through the buffers it is computed
    from, the edge states recognised as the select of the kept codes against the null code. -/
theorem after_ops_v80 (V : Valuation τ sig (Elt F)) :
    after ops V (Proc.devRef .tc main_v80)
      = Cert.EdgeMatch.lessMin (Cert.EdgeMatch.refEnergy (Cert.EdgeMatch.edgeStates (V (Proc.devRef .tc main_arg0)) (V (Proc.devRef .tc main_arg2)) (V (Proc.devRef .tc main_arg3))) (V (Proc.devRef .tc main_arg1))) := by
  rw [Cert.EdgeMatch.edgeStates_eq, ops_split]
  simp only [after_app]
  simp (disch := decide) only [min_v80, code9_v77, code5_v68, code3_v59, code2_v50, null_v41, call_v34, pre_v27, pre_v33, pre_c8, ops_pre_keep, ops_call_keep, ops_null_keep, ops_code2_keep, ops_code3_keep, ops_code5_keep, ops_code9_keep, ops_min_keep]
  rfl

set_option maxRecDepth 16384 in
/-- No operation writes `main_arg0`. -/
theorem after_ops_main_arg0 (V : Valuation τ sig (Elt F)) : after ops V (Proc.devRef .tc main_arg0) = V (Proc.devRef .tc main_arg0) := by
  rw [ops_split]
  simp only [after_app]
  simp (disch := decide) only [ops_pre_keep, ops_call_keep, ops_null_keep, ops_code2_keep, ops_code3_keep, ops_code5_keep, ops_code9_keep, ops_min_keep]

set_option maxRecDepth 16384 in
/-- No operation writes `main_arg1`. -/
theorem after_ops_main_arg1 (V : Valuation τ sig (Elt F)) : after ops V (Proc.devRef .tc main_arg1) = V (Proc.devRef .tc main_arg1) := by
  rw [ops_split]
  simp only [after_app]
  simp (disch := decide) only [ops_pre_keep, ops_call_keep, ops_null_keep, ops_code2_keep, ops_code3_keep, ops_code5_keep, ops_code9_keep, ops_min_keep]

set_option maxRecDepth 16384 in
/-- No operation writes `main_arg2`. -/
theorem after_ops_main_arg2 (V : Valuation τ sig (Elt F)) : after ops V (Proc.devRef .tc main_arg2) = V (Proc.devRef .tc main_arg2) := by
  rw [ops_split]
  simp only [after_app]
  simp (disch := decide) only [ops_pre_keep, ops_call_keep, ops_null_keep, ops_code2_keep, ops_code3_keep, ops_code5_keep, ops_code9_keep, ops_min_keep]

set_option maxRecDepth 16384 in
/-- No operation writes `main_arg3`. -/
theorem after_ops_main_arg3 (V : Valuation τ sig (Elt F)) : after ops V (Proc.devRef .tc main_arg3) = V (Proc.devRef .tc main_arg3) := by
  rw [ops_split]
  simp only [after_app]
  simp (disch := decide) only [ops_pre_keep, ops_call_keep, ops_null_keep, ops_code2_keep, ops_code3_keep, ops_code5_keep, ops_code9_keep, ops_min_keep]

/-- On every device, for any float values, from any memory with zero counters: every weakly fair execution of
    @main terminates with the result buffer at the energies of the arguments' edge states less their minimum,
    and the four arguments unchanged. Each buffer's final contents are the fold of the operations' results over
    the launch contents, which the stretches read off. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v80)
        = Cert.EdgeMatch.lessMin (Cert.EdgeMatch.refEnergy
            (Cert.EdgeMatch.edgeStates (m ((c.tc : Thread nD τ).loc main_arg0)) (m ((c.tc : Thread nD τ).loc main_arg2)) (m ((c.tc : Thread nD τ).loc main_arg3)))
            (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v80).trans (after_ops_v80 _),
      (h c main_arg0).trans (after_ops_main_arg0 _),
      (h c main_arg1).trans (after_ops_main_arg1 _),
      (h c main_arg2).trans (after_ops_main_arg2 _),
      (h c main_arg3).trans (after_ops_main_arg3 _)⟩)
    (run_seq scopedRefs_eq scopedSems_eq defs main (fun _ => ops) main_eq (fun _ => ops_sub) m ρ)

end Cert.ReferenceIdeal.RefValue

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.Totals.lean ====
/-
  The one law that joins the two programs.  For a pair (p, q) the kernel adds, block after block of 2048 edges, the
  four codes' matches to a running total that starts at zero, and adds the null count last; the reference starts from
  the null count and adds each code's matches over all 8192 edges, code after code.  A sum over the 8192 edges is
  the sum of its four blocks, and the rest is the commutativity and associativity of + on the extended reals, which
  hold whatever the summands are: nothing here needs the inputs to be finite.
-/
import proofs.«145659_j42271068127504_1_alg».proof.Proof.KernelValue
import proofs.«145659_j42271068127504_1_alg».proof.Proof.LibUnitAxisSums

noncomputable section
namespace Cert.KernelIdeal.Acc
open Idealize.ShloMosaic Idealize.ShloMosaic.ValueIdx
open Cert.KernelIdeal
open Cert.EdgeMatch (hit)

/-- One code's matches over all edges, as the four blocks' matches. -/
theorem sum_blocks (v w : BitVec 32) (es : IVec S2048x8192 32) (L : FVec Ideal S4096x8192 .f32) (p : Fin 2048)
    (q : Fin 4096) :
    ∑ e : Fin 8192, hit v w es L p q e
      = blockHits v w es L p q 0 + blockHits v w es L p q 1 + blockHits v w es L p q 2 + blockHits v w es L p q 3 := by
  have h := sum_fin_blocks 4 2048 (fun e : Fin (4 * 2048) => hit v w es L p q e)
  rw [Fin.sum_univ_four] at h
  exact h

/-- The kernel's total plus the null count is the reference's chain from the null count. -/
theorem total_eq (es : IVec S2048x8192 32) (L : FVec Ideal S4096x8192 .f32) (p : Fin 2048) (q : Fin 4096) (nc : EReal) :
    rawAt es L p q + nc
      = (((nc + ∑ e : Fin 8192, hit 2#32 0x40000000#32 es L p q e) + ∑ e : Fin 8192, hit 3#32 0x40400000#32 es L p q e)
          + ∑ e : Fin 8192, hit 5#32 0x40A00000#32 es L p q e) + ∑ e : Fin 8192, hit 9#32 0x41100000#32 es L p q e := by
  rw [sum_blocks, sum_blocks, sum_blocks, sum_blocks]
  unfold rawAt runStep
  rw [Ideal.ofBits_zero_f32]
  abel

end Cert.KernelIdeal.Acc
end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.RefEnergyAt.lean ====
/-
  The reference's energies read one pair (p, q) at a time, over the extended reals.

  The energy array is the null-count row plus four matrix products of 0/1 indicators. A matrix product that
  contracts the second axis of a [2048, 8192] array with the first axis of an [8192, 4096] array is, at (p, q),
  the sum over the 8192 edges e of the left factor at (p, e) times the right factor at (e, q). The left factor
  is the indicator "es[p, e] is the code v" converted to a float; the right factor is the transposed indicator
  "L[q, e] is the float w", which at (e, q) reads the untransposed indicator at (q, e). So each product is, at
  (p, q), the number of edges on which row p of es and row q of L match on the code, and the energy is the
  null count plus the four match counts, added in the order 2, 3, 5, 9.
-/
import proofs.«145659_j42271068127504_1_alg».proof.Proof.Spec
import proofs.«145659_j42271068127504_1_alg».proof.Proof.LibRowColDot
import Idealize.ShloMosaic.Lib.ValueIdx
import Idealize.ShloMosaic.Lib.ValueLayout
import Idealize.ShloMosaic.Lib.Pipeline.Value

noncomputable section

namespace Cert.EdgeMatch

open Idealize.ShloMosaic Idealize.ShloMosaic.ValueIdx
open Cert.ReferenceIdeal Cert.ReferenceIdeal.Facts₀

/-! ## The product's dimension numbers: one contracted axis of 8192 edges, rows kept from the left, columns from the right -/

theorem dot_contr_rank : dot_S2048x8192_S8192x4096_S2048x4096_1_0_0_1_n_n.contr.rank = 1 := rfl

theorem dot_contr_size :
    dot_S2048x8192_S8192x4096_S2048x4096_1_0_0_1_n_n.contr.size ⟨0, by rw [dot_contr_rank]; exact Nat.one_pos⟩ = 8192 := rfl

theorem dot_lhsContracting : dot_S2048x8192_S8192x4096_S2048x4096_1_0_0_1_n_n.lhsContracting = [1] := rfl

theorem dot_rhsContracting : dot_S2048x8192_S8192x4096_S2048x4096_1_0_0_1_n_n.rhsContracting = [0] := rfl

/-- The left operand's row coordinate is the output's row. -/
theorem dot_lhs_row (j : S2048x4096.Idx) (k : dot_S2048x8192_S8192x4096_S2048x4096_1_0_0_1_n_n.contr.Idx) :
    (dot_S2048x8192_S8192x4096_S2048x4096_1_0_0_1_n_n.lhsIdx j k 0).val = (j 0).val := rfl

/-- The right operand's column coordinate is the output's column. -/
theorem dot_rhs_col (j : S2048x4096.Idx) (k : dot_S2048x8192_S8192x4096_S2048x4096_1_0_0_1_n_n.contr.Idx) :
    (dot_S2048x8192_S8192x4096_S2048x4096_1_0_0_1_n_n.rhsIdx j k 1).val = (j 1).val := rfl

/-! ## The two indicators at an index -/

/-- The indicator "es = v" at (p, e): 1 if es[p, e] is the code v, else 0. -/
theorem esIs_apply (v : BitVec 32) (es : IVec S2048x8192 32) (p : Fin 2048) (e : Fin 8192) :
    esIs (F := Ideal) v es (ix2 p e) = hitI v (es (ix2 p e)) := rfl

/-- The transposed indicator "L = w" at (e, q): 1 if L[q, e] is the float w, else 0. -/
theorem learnedIsT_apply (w : BitVec 32) (L : FVec Ideal S4096x8192 .f32) (e : Fin 8192) (q : Fin 4096) :
    learnedIsT (F := Ideal) w L (ix2 e q) = hitF w (L (ix2 q e)) :=
  (transpose_ix2_apply (a := 4096) (b := 8192) _ transposes_S4096x8192_S8192x4096_1_0 e q).trans rfl

/-! ## One matrix product, and the energies, at a pair -/

/-- The matrix product of the two indicators at (p, q): the number of edges on which row p of es and row q of L
    match on the code. -/
theorem matchCount_apply (v w : BitVec 32) (es : IVec S2048x8192 32) (L : FVec Ideal S4096x8192 .f32)
    (p : Fin 2048) (q : Fin 4096) :
    matchCount (F := Ideal) v w es L (ix2 p q) = ∑ e : Fin 8192, hit v w es L p q e := by
  refine (Cert.RowColDot.hostDot_rowcol (a := 2048) (n := 8192) (b := 4096)
    dot_S2048x8192_S8192x4096_S2048x4096_1_0_0_1_n_n dot_contr_rank dot_contr_size dot_lhsContracting dot_rhsContracting
    dot_lhs_row dot_rhs_col none (esIs (F := Ideal) v es) (learnedIsT (F := Ideal) w L) (ix2 p q)).trans ?_
  refine Finset.sum_congr rfl fun e _ => ?_
  show esIs (F := Ideal) v es (ix2 p e) * learnedIsT (F := Ideal) w L (ix2 e q) = hit v w es L p q e
  rw [esIs_apply, learnedIsT_apply]
  rfl

/-- The reference's energy of the pair (p, q): the null count of row q plus, code by code in the order 2, 3, 5, 9,
    the number of edges on which the pair matches. -/
theorem refEnergy_apply (es : IVec Cert.ReferenceIdeal.S2048x8192 32) (L : FVec Ideal Cert.ReferenceIdeal.S4096x8192 .f32)
    (p : Fin 2048) (q : Fin 4096) :
    refEnergy (F := Ideal) es L (ix2 p q)
      = (((nullRow (F := Ideal) L (ix2 p q) + ∑ e : Fin 8192, hit 2#32 0x40000000#32 es L p q e)
          + ∑ e : Fin 8192, hit 3#32 0x40400000#32 es L p q e)
          + ∑ e : Fin 8192, hit 5#32 0x40A00000#32 es L p q e)
          + ∑ e : Fin 8192, hit 9#32 0x41100000#32 es L p q e := by
  rw [← matchCount_apply, ← matchCount_apply, ← matchCount_apply, ← matchCount_apply]
  rfl

end Cert.EdgeMatch

end
-- ==== Proof.Bridge.lean ====
/-
  The two programs' energies are one array.  Entry (p, q) of the kernel's energies is the pair's total, accumulated
  block after block, plus the null count of row q; the reference's is the null count plus the four codes' matches
  over all edges: the same extended real, by the law of Totals (blocks of a sum, and + commutative and associative).
-/
import proofs.«145659_j42271068127504_1_alg».proof.Proof.Totals
import proofs.«145659_j42271068127504_1_alg».proof.Proof.RefEnergyAt

noncomputable section
namespace Cert.KernelIdeal.Acc
open Idealize.ShloMosaic Idealize.ShloMosaic.ValueIdx
open Cert.KernelIdeal

/-- The product array plus the null counts is the reference's energy array. -/
theorem energies_eq (es : IVec S2048x8192 32) (L : FVec Ideal S4096x8192 .f32) :
    addf (rawG es L) (Cert.EdgeMatch.nullRow (F := Ideal) L) = Cert.EdgeMatch.refEnergy (F := Ideal) es L := by
  funext i
  obtain ⟨p, q, rfl⟩ : ∃ (p : Fin 2048) (q : Fin 4096), i = ix2 p q := ⟨i 0, i 1, eq_ix2 i⟩
  rw [Cert.EdgeMatch.refEnergy_apply]
  exact total_eq es L p q (Cert.EdgeMatch.nullRow (F := Ideal) L (ix2 p q))

end Cert.KernelIdeal.Acc
end
-- ==== Proof.lean ====
/-
  An all-pairs match count with a wildcard: for edge states es[p,e] (integer codes in {0,2,3,5,9}, computed from the
  node activations by a gather, a small table and a filter) and learned states L[q,e] (the same codes as floats),
      energy(p, q) = #{e : L[q,e] = 0} + Σ_{v ∈ {2,3,5,9}} #{e : es[p,e] = v and L[q,e] = v},
  and the result is every energy less the smallest one.

  The kernel computes the four indicator products on the matrix unit, tiled 512 × 512 over (p, q) and in four blocks
  of 2048 over the 8192 edges, accumulating in a scratch block that is reset at the first edge block and copied to the
  output at the last; the null counts are added and the minimum subtracted by host lines after the region.  The
  reference computes four whole matrix products on the host and adds them to the null counts one code at a time.
  Over the extended reals both are the same finite sum, grouped differently: a sum over the edges is the sum of its
  four blocks, and + is commutative and associative whatever the summands are, so the inputs' finiteness is not used.
  A one-bit comparison widened to 32 bits and read as a signed integer (the kernel's indicator) is the bit read
  unsigned (the reference's); a change of float format is the identity at the ideal values.

  The edge states, the null counts and the final "less the minimum" are the same host lines in both programs and are
  carried as one function each (Spec); the kernel's region is read off the generated frame: what each of the three
  control cases leaves (KernelPieces), the accumulator point by point (KernelAcc), one update at an entry (KernelStepAt),
  a run of four updates at an entry (KernelValue), the input blocks (KernelBlocks), the output array (KernelArray), the
  program around the region (KernelRun); the reference's run and its energies at an entry are RefRun and RefEnergyAt;
  Totals is the law that joins them and Bridge applies it entry by entry.  The ideal pass rewrote nothing, so the
  preservation claim is trivial.
-/
import proofs.«145659_j42271068127504_1_alg».proof.Defs
import proofs.«145659_j42271068127504_1_alg».proof.Proof.Gen.Kernel
import proofs.«145659_j42271068127504_1_alg».proof.Proof.Gen.Kernel.Frame
import proofs.«145659_j42271068127504_1_alg».proof.Proof.Gen.KernelIdeal
import proofs.«145659_j42271068127504_1_alg».proof.Proof.Gen.KernelIdeal.Frame
import proofs.«145659_j42271068127504_1_alg».proof.Proof.Gen.ReferenceIdeal
import proofs.«145659_j42271068127504_1_alg».proof.Proof.Gen.Pre_finite_inputs
import proofs.«145659_j42271068127504_1_alg».proof.Proof.KernelRun
import proofs.«145659_j42271068127504_1_alg».proof.Proof.RefRun
import proofs.«145659_j42271068127504_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the reference's energies of the same edge states and learned states, less their minimum. -/
theorem algebraic : Cert.algebraic_KernelIdeal_ReferenceIdeal := by
  intro m ρ m' ρ' _ hagree
  refine ⟨fun c => Cert.EdgeMatch.lessMin (F := Ideal) (Cert.EdgeMatch.refEnergy (F := Ideal)
      (Cert.EdgeMatch.edgeStates (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Acc.run m ρ)
    exact congrArg (Cert.EdgeMatch.lessMin (F := Ideal)) (Cert.KernelIdeal.Acc.energies_eq _ _)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
